-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x2 : Shape := ⟨3, ![512, 512, 2]⟩
abbrev S256x2 : Shape := ⟨2, ![256, 2]⟩
abbrev S256 : Shape := ⟨1, ![256]⟩
abbrev S256x3 : Shape := ⟨2, ![256, 3]⟩
abbrev S256x1 : Shape := ⟨2, ![256, 1]⟩
abbrev S_ : Shape := ⟨0, ![]⟩

class Facts : Prop where
  bcast_S_S512x512x2 : S_.BroadcastsInDim S512x512x2 (![] : Fin 0 → Fin S512x512x2.rank)
  reducesTo_S512x512x2_S_d0_1_2 : S512x512x2.ReducesTo [0, 1, 2] S_
  h_S_ : 0 < S_.numel
  bcast_S_S256x2 : S_.BroadcastsInDim S256x2 (![] : Fin 0 → Fin S256x2.rank)
  reducesTo_S256x2_S_d0_1 : S256x2.ReducesTo [0, 1] S_
  bcast_S_S256 : S_.BroadcastsInDim S256 (![] : Fin 0 → Fin S256.rank)
  reducesTo_S256_S_d0 : S256.ReducesTo [0] S_
  bcast_S_S256x3 : S_.BroadcastsInDim S256x3 (![] : Fin 0 → Fin S256x3.rank)
  reducesTo_S256x3_S_d0_1 : S256x3.ReducesTo [0, 1] S_
  bcast_S_S256x1 : S_.BroadcastsInDim S256x1 (![] : Fin 0 → Fin S256x1.rank)
  reducesTo_S256x1_S_d0_1 : S256x1.ReducesTo [0, 1] S_

variable [Facts]

def fn_part1 {F : FTy → Type} [FloatOps F] (main_arg4 : FVec F S256x3 .f32) (main_arg5 : FVec F S256x1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x3 .f32 := Host.absf main_arg4
  let main_cst_6 : FVec F S_ .f32 := constant S_ .f32 0x7F800000#32
  let main_v20 : FVec F S256x3 .f32 := broadcastInDim S256x3 ![] bcast_S_S256x3 main_cst_6
  let main_v21 : IVec S256x3 1 := cmpf .olt main_v19 main_v20
  let main_c_7 : IVec S_ 1 := constantI S_ 1 1#1
  let main_v22 : IVec S_ 1 := (fun x v => Host.reduce IntOp.andi x v reducesTo_S256x3_S_d0_1 h_S_) main_v21 main_c_7
  let main_v23 : IVec S_ 1 := andi main_v18 main_v22
  let main_v24 : FVec F S256x1 .f32 := Host.absf main_arg5
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  main_v28

def fn {F : FTy → Type} [FloatOps F] (main_arg0 : FVec F S512x512x2 .f32) (main_arg1 : FVec F S256x2 .f32) (main_arg2 : FVec F S256x2 .f32) (main_arg3 : FVec F S256 .f32) (main_arg4 : FVec F S256x3 .f32) (main_arg5 : FVec F S256x1 .f32) : IVec S_ 1 :=
  let main_v0 : FVec F S512x512x2 .f32 := Host.absf main_arg0
  let main_cst : FVec F S_ .f32 := constant S_ .f32 0x7F800000#32
  let main_v1 : FVec F S512x512x2 .f32 := broadcastInDim S512x512x2 ![] bcast_S_S512x512x2 main_cst
  let main_v2 : IVec S512x512x2 1 := cmpf .olt main_v0 main_v1
  let main_c : IVec S_ 1 := constantI S_ 1 1#1
  let main_v3 : IVec S_ 1 := (fun x v => Host.reduce IntOp.andi x v reducesTo_S512x512x2_S_d0_1_2 h_S_) main_v2 main_c
  let main_v4 : FVec F S256x2 .f32 := Host.absf main_arg1
  let main_cst_0 : FVec F S_ .f32 := constant S_ .f32 0x7F800000#32
  let main_v5 : FVec F S256x2 .f32 := broadcastInDim S256x2 ![] bcast_S_S256x2 main_cst_0
  let main_v6 : IVec S256x2 1 := cmpf .olt main_v4 main_v5
  let main_c_1 : IVec S_ 1 := constantI S_ 1 1#1
  let main_v7 : IVec S_ 1 := (fun x v => Host.reduce IntOp.andi x v reducesTo_S256x2_S_d0_1 h_S_) main_v6 main_c_1
  let main_v8 : IVec S_ 1 := andi main_v3 main_v7
  let main_v9 : FVec F S256x2 .f32 := Host.absf main_arg2
  let main_cst_2 : FVec F S_ .f32 := constant S_ .f32 0x7F800000#32
  let main_v10 : FVec F S256x2 .f32 := broadcastInDim S256x2 ![] bcast_S_S256x2 main_cst_2
  let main_v11 : IVec S256x2 1 := cmpf .olt main_v9 main_v10
  let main_c_3 : IVec S_ 1 := constantI S_ 1 1#1
  let main_v12 : IVec S_ 1 := (fun x v => Host.reduce IntOp.andi x v reducesTo_S256x2_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S512x512x2 : Shape := ⟨3, ![512, 512, 2]⟩
abbrev S256x2 : Shape := ⟨2, ![256, 2]⟩
abbrev S256 : Shape := ⟨1, ![256]⟩
abbrev S256x3 : Shape := ⟨2, ![256, 3]⟩
abbrev S256x1 : Shape := ⟨2, ![256, 1]⟩
abbrev S_ : Shape := ⟨0, ![]⟩
abbrev S256x4 : Shape := ⟨2, ![256, 4]⟩
abbrev S512x512x1 : Shape := ⟨3, ![512, 512, 1]⟩
abbrev S512x512 : Shape := ⟨2, ![512, 512]⟩
abbrev S32x512 : Shape := ⟨2, ![32, 512]⟩
abbrev S32x512x1 : Shape := ⟨3, ![32, 512, 1]⟩
abbrev S1x1x256 : Shape := ⟨3, ![1, 1, 256]⟩
abbrev S32x512x256 : Shape := ⟨3, ![32, 512, 256]⟩
abbrev S16384x256 : Shape := ⟨2, ![16384, 256]⟩
abbrev S16384x4 : Shape := ⟨2, ![16384, 4]⟩
abbrev S32x512x4 : Shape := ⟨3, ![32, 512, 4]⟩
abbrev S512x512x3 : Shape := ⟨3, ![512, 512, 3]⟩

abbrev nBuf : Space → Nat
  | .hbm => 87
  | .vmem => 16
  | .smem => 0
  | _ => 0

abbrev bufTy : (tb : Table) → Fin (tcTables nBuf tb) → BufTy
  | .hbm, ⟨0, _⟩ => ⟨S512x512x2, .f32⟩
  | .hbm, ⟨1, _⟩ => ⟨S256x2, .f32⟩
  | .hbm, ⟨2, _⟩ => ⟨S256x2, .f32⟩
  | .hbm, ⟨3, _⟩ => ⟨S256, .f32⟩
  | .hbm, ⟨4, _⟩ => ⟨S256x3, .f32⟩
  | .hbm, ⟨5, _⟩ => ⟨S256x1, .f32⟩
  | .hbm, ⟨6, _⟩ => ⟨S256x2, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S256, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S256, .f32⟩
  | .hbm, ⟨32, _⟩ => ⟨S256, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S256x1, .i1⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x1, .f32⟩
  | .hbm, ⟨53, _⟩ => ⟨S256x1, .f32⟩
  | .hbm, ⟨54, _⟩ => ⟨S256x1, .f32⟩
  | .hbm, ⟨55, _⟩ => ⟨S256x1, .f32⟩
  | .hbm, ⟨56, _⟩ => ⟨S256x1, .f32⟩
  | .hbm, ⟨57, _⟩ => ⟨S256, .f32⟩
  | .hbm, ⟨58, _⟩ => ⟨S256x3, .f32⟩
  | .hbm, ⟨59, _⟩ => ⟨S256x3, .f32⟩
  | .hbm, ⟨60, _⟩ => ⟨S_, .f32⟩
  | .hbm, ⟨61, _⟩ => ⟨S256x3, .f32⟩
  | .hbm, ⟨62, _⟩ => ⟨S256x3, .f32⟩
  | .hbm, ⟨63, _⟩ => ⟨S_, .f32⟩
  | .hbm, ⟨64, _⟩ => ⟨S256x3, .f32⟩
  | .hbm, ⟨65, _⟩ => ⟨S256x3, .f32⟩
  | .hbm, ⟨66, _⟩ => ⟨S_, .f32⟩
  | .hbm, ⟨67, _⟩ => ⟨S256x1, .f32⟩
  | .hbm, ⟨68, _⟩ => ⟨S256x1, .f32⟩
  | .hbm, ⟨69, _⟩ => ⟨S256x4, .f32⟩
  | .hbm, ⟨70, _⟩ => ⟨S256x4, .f32⟩
  | .hbm, ⟨71, _⟩ => ⟨S256x4, .f32⟩
  | .hbm, ⟨72, _⟩ => ⟨S256x1, .f32⟩
  | .hbm, ⟨73, _⟩ => ⟨S256, .f32⟩
  | .hbm, ⟨74, _⟩ => ⟨S256x1, .f32⟩
  | .hbm, ⟨75, _⟩ => ⟨S256, .f32⟩
  | .hbm, ⟨76, _⟩ => ⟨S512x512x1, .f32⟩
  | .hbm, ⟨77, _⟩ => ⟨S512x512, .f32⟩
  | .hbm, ⟨78, _⟩ => ⟨S512x512x1, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S512x512, .f32⟩
  | .hbm, ⟨83, _⟩ => ⟨S512x512x1, .f32⟩
  | .hbm, ⟨84, _⟩ => ⟨S512x512x1, .f32⟩
  | .hbm, ⟨85, _⟩ => ⟨S512x512x1, .f32⟩
  | .hbm, ⟨86, _⟩ => ⟨S512x512x3, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256x4, .f32⟩
  | .local _ .vmem, ⟨10, _⟩ => ⟨S32x512, .f32⟩
  | .local _ .vmem, ⟨11, _⟩ => ⟨S32x512, .f32⟩
  | .local _ .vmem, ⟨12, _⟩ => ⟨S32x512, .f32⟩
  | .local _ .vmem, ⟨13, _⟩ => ⟨S32x512, .f32⟩
  | .local _ .vmem, ⟨14, _⟩ => ⟨S32x512, .f32⟩
  | .local _ .vmem, ⟨15, _⟩ => ⟨S32x512, .f32⟩
  | _, _ => ⟨S512x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53_0 : Ref sig .tc := ⟨.hbm, 80, rfl⟩
abbrev main_v53_1 : Ref sig .tc := ⟨.hbm, 81, rfl⟩
abbrev main_v53_2 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S256x2_S256x1_0_0 : S256x2.Slices ![0, 0] S256x1
  shapeCasts_S256x1_S256 : S256x1.ShapeCasts S256
  slices_S256x2_S256x1_0_1 : S256x2.Slices ![0, 1] S256x1
  bcast_S_S256 : S_.BroadcastsInDim S256 (![] : Fin 0 → Fin S256.rank)
  bcast_S_S256x1 : S_.BroadcastsInDim S256x1 (![] : Fin 0 → Fin S256x1.rank)
  bcast_S_S256x3 : S_.BroadcastsInDim S256x3 (![] : Fin 0 → Fin S256x3.rank)
  bcast_S256_S256x1_0 : S256.BroadcastsInDim S256x1 (![0] : Fin 1 → Fin S256x1.rank)
  concatenates_S256x3_S256x1_S256x4_d1 : Shape.Concatenates [S256x3, S256x1] S256x4 1
  bcast_S256x1_S256x4_0_1 : S256x1.BroadcastsInDim S256x4 (![0, 1] : Fin 2 → Fin S256x4.rank)
  slices_S512x512x2_S512x512x1_0_0_0 : S512x512x2.Slices ![0, 0, 0] S512x512x1
  shapeCasts_S512x512x1_S512x512 : S512x512x1.ShapeCasts S512x512
  slices_S512x512x2_S512x512x1_0_0_1 : S512x512x2.Slices ![0, 0, 1] S512x512x1
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S256_S256_0 : ∀ a, (![0] : Fin 1 → Nat) a + S256.size a ≤ S256.size a
  h_S256 : 0 < S256.numel
  shapeCasts_S256_S256 : S256.ShapeCasts S256
  inb_S256x4_S256x4_0_0 : ∀ a, (![0, 0] : Fin 2 → Nat) a + S256x4.size a ≤ S256x4.size a
  h_S256x4 : 0 < S256x4.numel
  shapeCasts_S256x4_S256x4 : S256x4.ShapeCasts S256x4
  shapeCasts_S32x512_S32x512x1 : S32x512.ShapeCasts S32x512x1
  shapeCasts_S256_S1x1x256 : S256.ShapeCasts S1x1x256
  broadcasts_S32x512x1_S32x512x256 : S32x512x1.Broadcasts S32x512x256
  broadcasts_S1x1x256_S32x512x256 : S1x1x256.Broadcasts S32x512x256
  shapeCasts_S32x512x256_S16384x256 : S32x512x256.ShapeCasts S16384x256
  shapeCasts_S16384x4_S32x512x4 : S16384x4.ShapeCasts S32x512x4
  slices_S32x512x4_o0_0_0_S32x512x1 : S32x512x4.Slices ![0, 0, 0] S32x512x1
  shapeCasts_S32x512x1_S32x512 : S32x512x1.ShapeCasts S32x512
  slices_S32x512x4_o0_0_1_S32x512x1 : S32x512x4.Slices ![0, 0, 1] S32x512x1
  slices_S32x512x4_o0_0_2_S32x512x1 : S32x512x4.Slices ![0, 0, 2] S32x512x1
  slices_S32x512x4_o0_0_3_S32x512x1 : S32x512x4.Slices ![0, 0, 3] S32x512x1
  bcast_S512x512_S512x512x1_0_1 : S512x512.BroadcastsInDim S512x512x1 (![0, 1] : Fin 2 → Fin S512x512x1.rank)
  concatenates_S512x512x1_S512x512x1_S512x512x1_S512x512x3_d2 : Shape.Concatenates [S512x512x1, S512x512x1, S512x512x1] S512x512x3 2
  dot_S16384x256_S256x4_S16384x4_1_0_0_1_n_n_wf : DotDims.WF S16384x256 S256x4 S16384x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S512x512.size a
  hwx0_0 : ∀ i : grid0.Coords, EltTy.bits .f32 = 32 ∨ (Rect.block (s := S512x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S512x512.size a
  hwx0_1 : ∀ i : grid0.Coords, EltTy.bits .f32 = 32 ∨ (Rect.block (s := S512x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x4.size a ≤ S256x4.size a
  hwx0_7 : ∀ i : grid0.Coords, EltTy.bits .f32 = 32 ∨ (Rect.block (s := S256x4) S256x4.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S32x512.size a ≤ S512x512.size a
  hwx0_8 : ∀ i : grid0.Coords, EltTy.bits .f32 = 32 ∨ (Rect.block (s := S512x512) S32x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S32x512.size a ≤ S512x512.size a
  hwx0_9 : ∀ i : grid0.Coords, EltTy.bits .f32 = 32 ∨ (Rect.block (s := S512x512) S32x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S32x512.size a ≤ S512x512.size a
  hwx0_10 : ∀ i : grid0.Coords, EltTy.bits .f32 = 32 ∨ (Rect.block (s := S512x512) S32x512.size (cc0_transform_10 i) (hinb0_10 i)).WholeWords (EltTy.packing .f32)

variable [Facts₀]

def dot_S16384x256_S256x4_S16384x4_1_0_0_1_n_n : DotDims S16384x256 S256x4 S16384x4 where
  lhsContracting := [1]
  rhsContracting := [0]
  lhsNonContracting := [0]
  rhsNonContracting := [1]
  lhsBatch := []
  rhsBatch := []
  wf := dot_S16384x256_S256x4_S16384x4_1_0_0_1_n_n_wf

abbrev win0_0 : Pipeline.Window sig grid0 :=
  Pipeline.Window.ofSpec (Memref.whole main_v50) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v44) S256x4.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v53_0) S32x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v53_1) S32x512.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v53_2) S32x512.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S512x512x2 : Shape := ⟨3, ![512, 512, 2]⟩
abbrev S256x2 : Shape := ⟨2, ![256, 2]⟩
abbrev S256 : Shape := ⟨1, ![256]⟩
abbrev S256x3 : Shape := ⟨2, ![256, 3]⟩
abbrev S256x1 : Shape := ⟨2, ![256, 1]⟩
abbrev S512x512x1 : Shape := ⟨3, ![512, 512, 1]⟩
abbrev S512x512 : Shape := ⟨2, ![512, 512]⟩
abbrev S1x1x256 : Shape := ⟨3, ![1, 1, 256]⟩
abbrev S512x512x256 : Shape := ⟨3, ![512, 512, 256]⟩
abbrev S_ : Shape := ⟨0, ![]⟩
abbrev S512x512x3 : Shape := ⟨3, ![512, 512, 3]⟩

abbrev nBuf : Space → Nat
  | .hbm => 110
  | .vmem => 0
  | .smem => 0
  | _ => 0

abbrev bufTy : (tb : Table) → Fin (tcTables nBuf tb) → BufTy
  | .hbm, ⟨0, _⟩ => ⟨S512x512x2, .f32⟩
  | .hbm, ⟨1, _⟩ => ⟨S256x2, .f32⟩
  | .hbm, ⟨2, _⟩ => ⟨S256x2, .f32⟩
  | .hbm, ⟨3, _⟩ => ⟨S256, .f32⟩
  | .hbm, ⟨4, _⟩ => ⟨S256x3, .f32⟩
  | .hbm, ⟨5, _⟩ => ⟨S256x1, .f32⟩
  | .hbm, ⟨6, _⟩ => ⟨S256x2, .f32⟩
  | .hbm, ⟨7, _⟩ => ⟨S256x1, .f32⟩
  | .hbm, ⟨8, _⟩ => ⟨S256, .f32⟩
  | .hbm, ⟨9, _⟩ => ⟨S256x1, .f32⟩
  | .hbm, ⟨10, _⟩ => ⟨S256, .f32⟩
  | .hbm, ⟨11, _⟩ => ⟨S512x512x1, .f32⟩
  | .hbm, ⟨12, _⟩ => ⟨S512x512, .f32⟩
  | .hbm, ⟨13, _⟩ => ⟨S512x512x1, .f32⟩
  | .hbm, ⟨14, _⟩ => ⟨S256x1, .f32⟩
  | .hbm, ⟨15, _⟩ => ⟨S256, .f32⟩
  | .hbm, ⟨16, _⟩ => ⟨S1x1x256, .f32⟩
  | .hbm, ⟨17, _⟩ => ⟨S512x512x256, .f32⟩
  | .hbm, ⟨18, _⟩ => ⟨S512x512x256, .f32⟩
  | .hbm, ⟨19, _⟩ => ⟨S512x512x256, .f32⟩
  | .hbm, ⟨20, _⟩ => ⟨S512x512x1, .f32⟩
  | .hbm, ⟨21, _⟩ => ⟨S512x512, .f32⟩
  | .hbm, ⟨22, _⟩ => ⟨S512x512x1, .f32⟩
  | .hbm, ⟨23, _⟩ => ⟨S256x1, .f32⟩
  | .hbm, ⟨24, _⟩ => ⟨S256, .f32⟩
  | .hbm, ⟨25, _⟩ => ⟨S1x1x256, .f32⟩
  | .hbm, ⟨26, _⟩ => ⟨S512x512x256, .f32⟩
  | .hbm, ⟨27, _⟩ => ⟨S512x512x256, .f32⟩
  | .hbm, ⟨28, _⟩ => ⟨S512x512x256, .f32⟩
  | .hbm, ⟨29, _⟩ => ⟨S256, .f32⟩
  | .hbm, ⟨30, _⟩ => ⟨S256, .f32⟩
  | .hbm, ⟨31, _⟩ => ⟨S1x1x256, .f32⟩
  | .hbm, ⟨32, _⟩ => ⟨S512x512x256, .f32⟩
  | .hbm, ⟨33, _⟩ => ⟨S512x512x256, .f32⟩
  | .hbm, ⟨34, _⟩ => ⟨S1x1x256, .f32⟩
  | .hbm, ⟨35, _⟩ => ⟨S512x512x256, .f32⟩
  | .hbm, ⟨36, _⟩ => ⟨S512x512x256, .f32⟩
  | .hbm, ⟨37, _⟩ => ⟨S512x512x256, .f32⟩
  | .hbm, ⟨38, _⟩ => ⟨S512x512x256, .f32⟩
  | .hbm, ⟨39, _⟩ => ⟨S1x1x256, .f32⟩
  | .hbm, ⟨40, _⟩ => ⟨S512x512x256, .f32⟩
  | .hbm, ⟨41, _⟩ => ⟨S512x512x256, .f32⟩
  | .hbm, ⟨42, _⟩ => ⟨S1x1x256, .f32⟩
  | .hbm, ⟨43, _⟩ => ⟨S512x512x256, .f32⟩
  | .hbm, ⟨44, _⟩ => ⟨S512x512x256, .f32⟩
  | .hbm, ⟨45, _⟩ => ⟨S512x512x256, .f32⟩
  | .hbm, ⟨46, _⟩ => ⟨S512x512x256, .f32⟩
  | .hbm, ⟨47, _⟩ => ⟨S256, .f32⟩
  | .hbm, ⟨48, _⟩ => ⟨S_, .f32⟩
  | .hbm, ⟨49, _⟩ => ⟨S256, .f32⟩
  | .hbm, ⟨50, _⟩ => ⟨S256, .f32⟩
  | .hbm, ⟨51, _⟩ => ⟨S1x1x256, .f32⟩
  | .hbm, ⟨52, _⟩ => ⟨S512x512x256, .f32⟩
  | .hbm, ⟨53, _⟩ => ⟨S512x512x256, .f32⟩
  | .hbm, ⟨54, _⟩ => ⟨S512x512x256, .f32⟩
  | .hbm, ⟨55, _⟩ => ⟨S256, .f32⟩
  | .hbm, ⟨56, _⟩ => ⟨S_, .f32⟩
  | .hbm, ⟨57, _⟩ => ⟨S256, .f32⟩
  | .hbm, ⟨58, _⟩ => ⟨S256, .f32⟩
  | .hbm, ⟨59, _⟩ => ⟨S1x1x256, .f32⟩
  | .hbm, ⟨60, _⟩ => ⟨S512x512x256, .f32⟩
  | .hbm, ⟨61, _⟩ => ⟨S512x512x256, .f32⟩
  | .hbm, ⟨62, _⟩ => ⟨S512x512x256, .f32⟩
  | .hbm, ⟨63, _⟩ => ⟨S_, .f32⟩
  | .hbm, ⟨64, _⟩ => ⟨S512x512x256, .f32⟩
  | .hbm, ⟨65, _⟩ => ⟨S512x512x256, .f32⟩
  | .hbm, ⟨66, _⟩ => ⟨S512x512x256, .f32⟩
  | .hbm, ⟨67, _⟩ => ⟨S_, .f32⟩
  | .hbm, ⟨68, _⟩ => ⟨S256x1, .f32⟩
  | .hbm, ⟨69, _⟩ => ⟨S256x1, .f32⟩
  | .hbm, ⟨70, _⟩ => ⟨S256x1, .f32⟩
  | .hbm, ⟨71, _⟩ => ⟨S256x1, .f32⟩
  | .hbm, ⟨72, _⟩ => ⟨S256x1, .i1⟩
  | .hbm, ⟨73, _⟩ => ⟨S256x1, .f32⟩
  | .hbm, ⟨74, _⟩ => ⟨S256x1, .f32⟩
  | .hbm, ⟨75, _⟩ => ⟨S256x1, .f32⟩
  | .hbm, ⟨76, _⟩ => ⟨S256x1, .f32⟩
  | .hbm, ⟨77, _⟩ => ⟨S256x1, .f32⟩
  | .hbm, ⟨78, _⟩ => ⟨S256x1, .f32⟩
  | .hbm, ⟨79, _⟩ => ⟨S256x1, .f32⟩
  | .hbm, ⟨80, _⟩ => ⟨S256x1, .f32⟩
  | .hbm, ⟨81, _⟩ => ⟨S256, .f32⟩
  | .hbm, ⟨82, _⟩ => ⟨S1x1x256, .f32⟩
  | .hbm, ⟨83, _⟩ => ⟨S512x512x256, .f32⟩
  | .hbm, ⟨84, _⟩ => ⟨S512x512x256, .f32⟩
  | .hbm, ⟨85, _⟩ => ⟨S256x3, .f32⟩
  | .hbm, ⟨86, _⟩ => ⟨S256x3, .f32⟩
  | .hbm, ⟨87, _⟩ => ⟨S_, .f32⟩
  | .hbm, ⟨88, _⟩ => ⟨S256x3, .f32⟩
  | .hbm, ⟨89, _⟩ => ⟨S256x3, .f32⟩
  | .hbm, ⟨90, _⟩ => ⟨S_, .f32⟩
  | .hbm, ⟨91, _⟩ => ⟨S256x3, .f32⟩
  | .hbm, ⟨92, _⟩ => ⟨S256x3, .f32⟩
  | .hbm, ⟨93, _⟩ => ⟨S512x512x3, .f32⟩
  | .hbm, ⟨94, _⟩ => ⟨S_, .f32⟩
  | .hbm, ⟨95, _⟩ => ⟨S512x512, .f32⟩
  | .hbm, ⟨96, _⟩ => ⟨S512x512x1, .f32⟩
  | .hbm, ⟨97, _⟩ => ⟨S_, .f32⟩
  | .hbm, ⟨98, _⟩ => ⟨S512x512x1, .f32⟩
  | .hbm, ⟨99, _⟩ => ⟨S512x512x1, .f32⟩
  | .hbm, ⟨100, _⟩ => ⟨S512x512x3, .f32⟩
  | .hbm, ⟨101, _⟩ => ⟨S512x512x3, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S512x512x3, .f32⟩
  | .hbm, ⟨106, _⟩ => ⟨S512x512x3, .f32⟩
  | .hbm, ⟨107, _⟩ => ⟨S_, .f32⟩
  | .hbm, ⟨108, _⟩ => ⟨S512x512x3, .f32⟩
  | .hbm, ⟨109, _⟩ => ⟨S512x512x3, .f32⟩
  | _, _ => ⟨S512x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_v8 : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_2 : Ref sig .tc := ⟨.hbm, 87, rfl⟩
abbrev main_v65 : Ref sig .tc := ⟨.hbm, 88, rfl⟩
abbrev main_v66 : Ref sig .tc := ⟨.hbm, 89, rfl⟩
abbrev main_cst_3 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_4 : Ref sig .tc := ⟨.hbm, 94, rfl⟩
abbrev main_v70 : Ref sig .tc := ⟨.hbm, 95, rfl⟩
abbrev main_v71 : Ref sig .tc := ⟨.hbm, 96, rfl⟩
abbrev main_cst_5 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_6 : Ref sig .tc := ⟨.hbm, 102, rfl⟩
abbrev main_cst_7 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_v76 : Ref sig .tc := ⟨.hbm, 109, rfl⟩

abbrev nD : Nat := 1
abbrev τ : Topo := Topo.v7x

variable {F : FTy → Type} [FloatOps F]

class Facts₀ : Prop where
  slices_S256x2_S256x1_0_0 : S256x2.Slices ![0, 0] S256x1
  shapeCasts_S256x1_S256 : S256x1.ShapeCasts S256
  slices_S256x2_S256x1_0_1 : S256x2.Slices ![0, 1] S256x1
  slices_S512x512x2_S512x512x1_0_0_0 : S512x512x2.Slices ![0, 0, 0] S512x512x1
  shapeCasts_S512x512x1_S512x512 : S512x512x1.ShapeCasts S512x512
  bcast_S512x512_S512x512x1_0_1 : S512x512.BroadcastsInDim S512x512x1 (![0, 1] : Fin 2 → Fin S512x512x1.rank)
  bcast_S256_S1x1x256_2 : S256.BroadcastsInDim S1x1x256 (![2] : Fin 1 → Fin S1x1x256.rank)
  bcast_S512x512x1_S512x512x256_0_1_2 : S512x512x1.BroadcastsInDim S512x512x256 (![0, 1, 2] : Fin 3 → Fin S512x512x256.rank)
  bcast_S1x1x256_S512x512x256_0_1_2 : S1x1x256.BroadcastsInDim S512x512x256 (![0, 1, 2] : Fin 3 → Fin S512x512x256.rank)
  slices_S512x512x2_S512x512x1_0_0_1 : S512x512x2.Slices ![0, 0, 1] S512x512x1
  bcast_S_S256 : S_.BroadcastsInDim S256 (![] : Fin 0 → Fin S256.rank)
  bcast_S_S512x512x256 : S_.BroadcastsInDim S512x512x256 (![] : Fin 0 → Fin S512x512x256.rank)
  bcast_S_S256x1 : S_.BroadcastsInDim S256x1 (![] : Fin 0 → Fin S256x1.rank)
  bcast_S_S256x3 : S_.BroadcastsInDim S256x3 (![] : Fin 0 → Fin S256x3.rank)
  reducesTo_S512x512x256_S512x512_d2 : S512x512x256.ReducesTo [2] S512x512
  h_S_ : 0 < S_.numel
  bcast_S_S512x512x1 : S_.BroadcastsInDim S512x512x1 (![] : Fin 0 → Fin S512x512x1.rank)
  bcast_S512x512x1_S512x512x3_0_1_2 : S512x512x1.BroadcastsInDim S512x512x3 (![0, 1, 2] : Fin 3 → Fin S512x512x3.rank)
  bcast_S_S512x512x3 : S_.BroadcastsInDim S512x512x3 (![] : Fin 0 → Fin S512x512x3.rank)
  dot_S512x512x256_S256x3_S512x512x3_2_0_01_1_n_n_wf : DotDims.WF S512x512x256 S256x3 S512x512x3 [2] [0] [0, 1] [1] [] []

variable [Facts₀]

def dot_S512x512x256_S256x3_S512x512x3_2_0_01_1_n_n : DotDims S512x512x256 S256x3 S512x512x3 where
  lhsContracting := [2]
  rhsContracting := [0]
  lhsNonContracting := [0, 1]
  rhsNonContracting := [1]
  lhsBatch := []
  rhsBatch := []
  wf := dot_S512x512x256_S256x3_S512x512x3_2_0_01_1_n_n_wf

class Facts : Prop extends Facts₀ where

variable [Facts]
-- ==== Proof.KernelAround.lean ====
/-
  @main of the per-pixel Gaussian blend around its one region, at any float instance.

  @main is three stretches of host operations (the parameter plumbing: the inverse squared scales, the rotation's
  quadratic form A, B, C, the amplitude-weighted colour matrix, and the two coordinate planes sliced off the grid),
  the region, and one more stretch that stacks the three colour planes into the image. This module states what the
  region finds in every buffer (the argument arrays untouched by the plumbing), that @main reduces to the region
  continued by the stacking lines, that those lines touch only unscoped buffers, allocate nothing and write none of
  the region's arrays, and what a window's block is at a grid point.
-/
import proofs.«121615_j16518444220960_2_alg».proof.Proof.Gen.Kernel.Launch
import proofs.«121615_j16518444220960_2_alg».proof.Proof.Gen.Kernel.Skeleton
import proofs.«121615_j16518444220960_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The host lines before the region, stretch by stretch. -/
abbrev prefixOps : List (List (HloOp τ sig (Elt F))) := [hostOps0, hostOps0_1, hostOps0_2]

/-- Core `c`'s buffer contents when the region is entered: the launch contents after the lines before the region. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- No line before the region allocates. -/
theorem prefix_fresh : (prefixOps (F := F)).Forall fun ops => ops.Forall fun op => op.fresh = ∅ := by
  simp only [prefixOps, List.Forall]; repeat' constructor

/-- Every line before the region touches TensorCore references only. -/
theorem prefix_sub : (prefixOps (F := F)).Forall fun ops => ops.Forall fun op => op.bufs ⊆ StableHlo.tcRefs τ sig :=
  ⟨hostOps0_sub, hostOps0_1_sub, hostOps0_2_sub⟩

/-- No line after the region allocates. -/
theorem hostOps1_fresh : (hostOps1 : List (HloOp τ sig (Elt F))).Forall fun op => op.fresh = ∅ := by
  simp only [List.Forall]; repeat' constructor

/-- @main is the lines before the region, the region, the lines after it: it reduces to the region continued by the
    later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write none of the region's arrays: each writes its own result, a buffer no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-! ## The argument arrays are as launched -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the region-entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the block
    index has not moved), for any proof data whose array is the region-entry contents and whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the block
    index has not moved), for any proof data whose array is the region-entry contents and whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the block
    index has not moved), for any proof data whose array is the region-entry contents and whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the block
    index has not moved), for any proof data whose array is the region-entry contents and whose body leaves the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the block
    index has not moved), for any proof data whose array is the region-entry contents and whose body leaves the block in place. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the block
    index has not moved), for any proof data whose array is the region-entry contents and whose body leaves the block in place. -/
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the block
    index has not moved), for any proof data whose array is the region-entry contents and whose body leaves the block in place. -/
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.Kernel.Around

end
-- ==== Proof.KernelBody.lean ====
/-
  The body of the per-pixel Gaussian blend at one grid point, at any float instance.

  At a point the body loads the two coordinate planes of its 32 rows, the five parameter vectors and the
  amplitude-weighted colour matrix whole, forms one [32·512, 4] matrix product from them, and stores three planes, each
  a clipped quotient of one product column by the fourth. This module names what each output plane's buffer holds
  after the body as a function of the eight input blocks, proves the body's triple against those names, gives the
  region's proof data (inputs left in place, outputs at the named planes, nothing else owned) and discharges the body
  obligation at every grid point.
-/
import proofs.«121615_j16518444220960_2_alg».proof.Proof.KernelAround

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer whole -/

abbrev rPlane : Rect S32x512 := Rect.unit (s := S32x512) ![0, 0] S32x512.size inb_S32x512_S32x512_0_0
abbrev rVec : Rect S256 := Rect.unit (s := S256) ![0] S256.size inb_S256_S256_0
abbrev rMat : Rect S256x4 := Rect.unit (s := S256x4) ![0, 0] S256x4.size inb_S256x4_S256x4_0_0

/-! ## What the body leaves in each output plane's buffer -/

/-- The [32, 512, 4] product of the point: per pixel the sums over the Gaussians of its weight times the colour
    matrix's four columns, from the eight input blocks. -/
def prodOf (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : FVec F S32x512x4 .f32 :=
  k0_pay5 (View.ld x0 rPlane) (View.ld x1 rPlane) (View.ld x2 rVec) (View.ld x3 rVec) (View.ld x4 rVec) (View.ld x5 rVec) (View.ld x6 rVec) (View.ld x7 rMat)

/-- Output plane 0's buffer after the body: its one whole store, of the clipped quotient of product column 0 by column 3 plus ε. -/
def out8 (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : Vec F S32x512 .f32 :=
  View.canon [⟨rPlane, k0_pay2 (prodOf x0 x1 x2 x3 x4 x5 x6 x7)⟩]
/-- Output plane 1's buffer after the body: its one whole store, of the clipped quotient of product column 1 by column 3 plus ε. -/
def out9 (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : Vec F S32x512 .f32 :=
  View.canon [⟨rPlane, k0_pay3 (prodOf x0 x1 x2 x3 x4 x5 x6 x7)⟩]
/-- Output plane 2's buffer after the body: its one whole store, of the clipped quotient of product column 2 by column 3 plus ε. -/
def out10 (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : Vec F S32x512 .f32 :=
  View.canon [⟨rPlane, k0_pay4 (prodOf x0 x1 x2 x3 x4 x5 x6 x7)⟩]

/-- One whole store covers the buffer. -/
theorem cover_plane (p0 : Vec F S32x512 .f32) (y : S32x512.Idx) :
    ∃ pc ∈ ([⟨rPlane, p0⟩] : List (View.Piece (Elt F) S32x512 .f32)), y ∈ pc.1.set :=
  View.cover_of_tiled [⟨rPlane, p0⟩] S32x512.size (by rfl) y

/-! ## The body's triple -/

set_option maxHeartbeats 4000000 in
/-- The body on whole staging memrefs, the inputs' at read contents and the outputs' at anything, runs to the continuation
    holding the inputs' as they were and each output's at its named plane. -/
theorem sound_kernel (c : Dev nD) (E : Set ℕ) (i : grid0.Coords)
    (arg1 : Memref sig .tc .vmem S32x512 .f32) (harg1 : arg1.IsWhole) (arg2 : Memref sig .tc .vmem S32x512 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x4 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8 x0 x1 x2 x3 x4 x5 x6 x7) ∗ owns (c : Thread nD τ) arg10 fullShare (out9 x0 x1 x2 x3 x4 x5 x6 x7) ∗ owns (c : Thread nD τ) arg11 fullShare (out10 x0 x1 x2 x3 x4 x5 x6 x7)) -∗ K ⟨⟩))
      ⊢ wp frame (wpE (defs₀ (F := F)) Variants.none c none) E (cc0__gaussian_kernel i arg1 harg1 arg2 harg2 arg3 harg3 arg4 harg4 arg5 harg5 arg6 harg6 arg7 harg7 arg8 harg8 arg9 harg9 arg10 harg10 arg11 harg11) K := by
  simp only [cc0__gaussian_kernel_eq_skeleton]; unfold cc0__gaussian_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_plane _)
  isplitl [H9]
  · iexists _; isplitr
    swap; · iexact H9
    ipureintro
    try dsimp only
    exact View.read_writes_eq_canon _ _ _ (cover_plane _)
  iexists _; isplitr
  swap; · iexact H10
  ipureintro
  try dsimp only
  exact View.read_writes_eq_canon _ _ _ (cover_plane _)

/-! ## The region's proof data -/

/-- The proof data of the region on core `c`: the arrays as the region finds them; after the body at point `t` each
    input's buffer at its block and each output's at its named plane of the input blocks; the invariant owns nothing of
    the kernel's own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
    | ⟨10, _⟩ => out10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after_out9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]
theorem after_out10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out8, after_out9, after_out10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Around

end
-- ==== Proof.KernelRun.lean ====
/-
  The run of the per-pixel Gaussian blend, at any float instance: every weakly fair execution of @main terminates
  without a fault; the three colour planes end at what the region's proof data computes block by block, every buffer
  the region bypasses at what the stacking lines after it leave there, and the six argument arrays end as launched.
-/
import proofs.«121615_j16518444220960_2_alg».proof.Proof.KernelBody

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every buffer holds after the stacking lines: those lines run from the region's exit, where the region's arrays
    hold what the proof data computes and every other buffer what the region found. -/
abbrev final (c : Dev nD) (b : Ref sig .tc) : Buf (Elt F) ((c.tc : Thread nD τ).loc b) :=
  Pipeline.afterTail₀ cfgs (dats m) 0 (V0 m) [hostOps1] c b

set_option backward.isDefEq.respectTransparency.types false in
/-- From any memory with zero counters every weakly fair execution of @main terminates, and every final state has each
    array of the region at what the library computes from the proof data and every other unscoped buffer at `final`. -/
theorem run_main : θ_run defs (onTc (τ := τ) (main (F := F))) (s₀ m ρ) (Pipeline.FramePost cfgs (dats m) 0 (final m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A buffer that is no array of the region and that no stacking line writes ends as the region found it. -/
theorem final_of_untouched (c : Dev nD) (b : Ref sig .tc) (hb : ∀ w, Pipeline.arrRef spec0 w ≠ b)
    (hw : ∀ op ∈ (hostOps1 : List (HloOp τ sig (Elt F))), Proc.devRef .tc b ∉ op.writes) : final m c b = V m c b := by
  unfold final Pipeline.afterTail₀
  rw [StableHlo.after_of_forall_not_mem _ _ (by simpa only [List.flatten_cons, List.flatten_nil, List.append_nil] using hw)]
  exact Pipeline.withArrays_of_ne _ c _ _ b hb

/-- Argument 0 is no array of the region and no stacking line writes it. -/
theorem final_main_arg0 (c : Dev nD) : final m c main_arg0 = m ((c : Thread nD τ).loc main_arg0) :=
  (final_of_untouched m c main_arg0 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg0 m c)
/-- Argument 1 is no array of the region and no stacking line writes it. -/
theorem final_main_arg1 (c : Dev nD) : final m c main_arg1 = m ((c : Thread nD τ).loc main_arg1) :=
  (final_of_untouched m c main_arg1 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg1 m c)
/-- Argument 2 is no array of the region and no stacking line writes it. -/
theorem final_main_arg2 (c : Dev nD) : final m c main_arg2 = m ((c : Thread nD τ).loc main_arg2) :=
  (final_of_untouched m c main_arg2 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg2 m c)
/-- Argument 3 is no array of the region and no stacking line writes it. -/
theorem final_main_arg3 (c : Dev nD) : final m c main_arg3 = m ((c : Thread nD τ).loc main_arg3) :=
  (final_of_untouched m c main_arg3 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg3 m c)
/-- Argument 4 is no array of the region and no stacking line writes it. -/
theorem final_main_arg4 (c : Dev nD) : final m c main_arg4 = m ((c : Thread nD τ).loc main_arg4) :=
  (final_of_untouched m c main_arg4 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg4 m c)
/-- Argument 5 is no array of the region and no stacking line writes it. -/
theorem final_main_arg5 (c : Dev nD) : final m c main_arg5 = m ((c : Thread nD τ).loc main_arg5) :=
  (final_of_untouched m c main_arg5 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg5 m c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (final_main_arg0 m c),
      ((h c).2 main_arg1 (Pipeline.mem_restRefs_of main_arg1 (by decide) (by decide))).trans (final_main_arg1 m c),
      ((h c).2 main_arg2 (Pipeline.mem_restRefs_of main_arg2 (by decide) (by decide))).trans (final_main_arg2 m c),
      ((h c).2 main_arg3 (Pipeline.mem_restRefs_of main_arg3 (by decide) (by decide))).trans (final_main_arg3 m c),
      ((h c).2 main_arg4 (Pipeline.mem_restRefs_of main_arg4 (by decide) (by decide))).trans (final_main_arg4 m c),
      ((h c).2 main_arg5 (Pipeline.mem_restRefs_of main_arg5 (by decide) (by decide))).trans (final_main_arg5 m c)⟩) (run_main m ρ)

end Cert.Kernel.Around

end
-- ==== Proof.KernelIdealAround.lean ====
/-
  @main of the per-pixel Gaussian blend around its one region, at any float instance.

  @main is three stretches of host operations (the parameter plumbing: the inverse squared scales, the rotation's
  quadratic form A, B, C, the amplitude-weighted colour matrix, and the two coordinate planes sliced off the grid),
  the region, and one more stretch that stacks the three colour planes into the image. This module states what the
  region finds in every buffer (the argument arrays untouched by the plumbing), that @main reduces to the region
  continued by the stacking lines, that those lines touch only unscoped buffers, allocate nothing and write none of
  the region's arrays, and what a window's block is at a grid point.
-/
import proofs.«121615_j16518444220960_2_alg».proof.Proof.Gen.KernelIdeal.Launch
import proofs.«121615_j16518444220960_2_alg».proof.Proof.Gen.KernelIdeal.Skeleton
import proofs.«121615_j16518444220960_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- The host lines before the region, stretch by stretch. -/
abbrev prefixOps : List (List (HloOp τ sig (Elt F))) := [hostOps0, hostOps0_1, hostOps0_2]

/-- Core `c`'s buffer contents when the region is entered: the launch contents after the lines before the region. -/
abbrev V0 (c : Dev nD) : Valuation τ sig (Elt F) := StableHlo.after (List.flatten (prefixOps (F := F))) (fun b => m (c, b))
/-- The same read at a TensorCore reference. -/
abbrev V (c : Dev nD) (b : Ref sig .tc) : Buf (Elt F) ((c : Thread nD τ).loc b) := V0 m c (Proc.devRef .tc b)

/-- No line before the region allocates. -/
theorem prefix_fresh : (prefixOps (F := F)).Forall fun ops => ops.Forall fun op => op.fresh = ∅ := by
  simp only [prefixOps, List.Forall]; repeat' constructor

/-- Every line before the region touches TensorCore references only. -/
theorem prefix_sub : (prefixOps (F := F)).Forall fun ops => ops.Forall fun op => op.bufs ⊆ StableHlo.tcRefs τ sig :=
  ⟨hostOps0_sub, hostOps0_1_sub, hostOps0_2_sub⟩

/-- No line after the region allocates. -/
theorem hostOps1_fresh : (hostOps1 : List (HloOp τ sig (Elt F))).Forall fun op => op.fresh = ∅ := by
  simp only [List.Forall]; repeat' constructor

/-- @main is the lines before the region, the region, the lines after it: it reduces to the region continued by the
    later lines, entered at the contents the earlier lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- And write none of the region's arrays: each writes its own result, a buffer no window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl
  all_goals intro w; fin_cases w <;> simp only [StableHlo.unary_writes, StableHlo.nary_writes, Finset.mem_singleton] <;> exact StableHlo.devRef_ne_of_ne (by decide)

/-! ## The argument arrays are as launched -/

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))
/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [prefixOps, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the block
    index has not moved), for any proof data whose array is the region-entry contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the block
    index has not moved), for any proof data whose array is the region-entry contents and whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the block
    index has not moved), for any proof data whose array is the region-entry contents and whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the block
    index has not moved), for any proof data whose array is the region-entry contents and whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the block
    index has not moved), for any proof data whose array is the region-entry contents and whose body leaves the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the block
    index has not moved), for any proof data whose array is the region-entry contents and whose body leaves the block in place. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the block
    index has not moved), for any proof data whose array is the region-entry contents and whose body leaves the block in place. -/
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the block
    index has not moved), for any proof data whose array is the region-entry contents and whose body leaves the block in place. -/
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Around

end
-- ==== Proof.KernelIdealBody.lean ====
/-
  The body of the per-pixel Gaussian blend at one grid point, at any float instance.

  At a point the body loads the two coordinate planes of its 32 rows, the five parameter vectors and the
  amplitude-weighted colour matrix whole, forms one [32·512, 4] matrix product from them, and stores three planes, each
  a clipped quotient of one product column by the fourth. This module names what each output plane's buffer holds
  after the body as a function of the eight input blocks, proves the body's triple against those names, gives the
  region's proof data (inputs left in place, outputs at the named planes, nothing else owned) and discharges the body
  obligation at every grid point.
-/
import proofs.«121615_j16518444220960_2_alg».proof.Proof.KernelIdealAround

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every buffer whole -/

abbrev rPlane : Rect S32x512 := Rect.unit (s := S32x512) ![0, 0] S32x512.size inb_S32x512_S32x512_0_0
abbrev rVec : Rect S256 := Rect.unit (s := S256) ![0] S256.size inb_S256_S256_0
abbrev rMat : Rect S256x4 := Rect.unit (s := S256x4) ![0, 0] S256x4.size inb_S256x4_S256x4_0_0

/-! ## What the body leaves in each output plane's buffer -/

/-- The [32, 512, 4] product of the point: per pixel the sums over the Gaussians of its weight times the colour
    matrix's four columns, from the eight input blocks. -/
def prodOf (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : FVec F S32x512x4 .f32 :=
  k0_pay5 (View.ld x0 rPlane) (View.ld x1 rPlane) (View.ld x2 rVec) (View.ld x3 rVec) (View.ld x4 rVec) (View.ld x5 rVec) (View.ld x6 rVec) (View.ld x7 rMat)

/-- Output plane 0's buffer after the body: its one whole store, of the clipped quotient of product column 0 by column 3 plus ε. -/
def out8 (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : Vec F S32x512 .f32 :=
  View.canon [⟨rPlane, k0_pay2 (prodOf x0 x1 x2 x3 x4 x5 x6 x7)⟩]
/-- Output plane 1's buffer after the body: its one whole store, of the clipped quotient of product column 1 by column 3 plus ε. -/
def out9 (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : Vec F S32x512 .f32 :=
  View.canon [⟨rPlane, k0_pay3 (prodOf x0 x1 x2 x3 x4 x5 x6 x7)⟩]
/-- Output plane 2's buffer after the body: its one whole store, of the clipped quotient of product column 2 by column 3 plus ε. -/
def out10 (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) : Vec F S32x512 .f32 :=
  View.canon [⟨rPlane, k0_pay4 (prodOf x0 x1 x2 x3 x4 x5 x6 x7)⟩]

/-- One whole store covers the buffer. -/
theorem cover_plane (p0 : Vec F S32x512 .f32) (y : S32x512.Idx) :
    ∃ pc ∈ ([⟨rPlane, p0⟩] : List (View.Piece (Elt F) S32x512 .f32)), y ∈ pc.1.set :=
  View.cover_of_tiled [⟨rPlane, p0⟩] S32x512.size (by rfl) y

/-! ## The body's triple -/

set_option maxHeartbeats 4000000 in
/-- The body on whole staging memrefs, the inputs' at read contents and the outputs' at anything, runs to the continuation
    holding the inputs' as they were and each output's at its named plane. -/
theorem sound_kernel (c : Dev nD) (E : Set ℕ) (i : grid0.Coords)
    (arg1 : Memref sig .tc .vmem S32x512 .f32) (harg1 : arg1.IsWhole) (arg2 : Memref sig .tc .vmem S32x512 .f32) (harg2 : arg2.IsWhole) (arg3 : Memref sig .tc .vmem S256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256x4 .f32) (harg8 : arg8.IsWhole) (arg9 : Memref sig .tc .vmem S32x512 .f32) (harg9 : arg9.IsWhole) (arg10 : Memref sig .tc .vmem S32x512 .f32) (harg10 : arg10.IsWhole) (arg11 : Memref sig .tc .vmem S32x512 .f32) (harg11 : arg11.IsWhole)
    (x0 : Vec F S32x512 .f32) (x1 : Vec F S32x512 .f32) (x2 : Vec F S256 .f32) (x3 : Vec F S256 .f32) (x4 : Vec F S256 .f32) (x5 : Vec F S256 .f32) (x6 : Vec F S256 .f32) (x7 : Vec F S256x4 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out8 x0 x1 x2 x3 x4 x5 x6 x7) ∗ owns (c : Thread nD τ) arg10 fullShare (out9 x0 x1 x2 x3 x4 x5 x6 x7) ∗ owns (c : Thread nD τ) arg11 fullShare (out10 x0 x1 x2 x3 x4 x5 x6 x7)) -∗ K ⟨⟩))
      ⊢ wp frame (wpE (defs₀ (F := F)) Variants.none c none) E (cc0__gaussian_kernel i arg1 harg1 arg2 harg2 arg3 harg3 arg4 harg4 arg5 harg5 arg6 harg6 arg7 harg7 arg8 harg8 arg9 harg9 arg10 harg10 arg11 harg11) K := by
  simp only [cc0__gaussian_kernel_eq_skeleton]; unfold cc0__gaussian_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_plane _)
  isplitl [H9]
  · iexists _; isplitr
    swap; · iexact H9
    ipureintro
    try dsimp only
    exact View.read_writes_eq_canon _ _ _ (cover_plane _)
  iexists _; isplitr
  swap; · iexact H10
  ipureintro
  try dsimp only
  exact View.read_writes_eq_canon _ _ _ (cover_plane _)

/-! ## The region's proof data -/

/-- The proof data of the region on core `c`: the arrays as the region finds them; after the body at point `t` each
    input's buffer at its block and each output's at its named plane of the input blocks; the invariant owns nothing of
    the kernel's own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 (iblk m c 0 t) (iblk m c 1 t) (iblk m c 2 t) (iblk m c 3 t) (iblk m c 4 t) (iblk m c 5 t) (iblk m c 6 t) (iblk m c 7 t)
    | ⟨9, _⟩ => out9 (iblk m c 0 t) (iblk m c 1 t) (iblk m c 2 t) (iblk m c 3 t) (iblk m c 4 t) (iblk m c 5 t) (iblk m c 6 t) (iblk m c 7 t)
    | ⟨10, _⟩ => out10 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_out8 (c : Dev nD) (t : Fin cfg0.N) : (dats m 0 c).after 8 t = out8 (iblk m c 0 t) (iblk m c 1 t) (iblk m c 2 t) (iblk m c 3 t) (iblk m c 4 t) (iblk m c 5 t) (iblk m c 6 t) (iblk m c 7 t) := by dsimp only [dats]
theorem after_out9 (c : Dev nD) (t : Fin cfg0.N) : (dats m 0 c).after 9 t = out9 (iblk m c 0 t) (iblk m c 1 t) (iblk m c 2 t) (iblk m c 3 t) (iblk m c 4 t) (iblk m c 5 t) (iblk m c 6 t) (iblk m c 7 t) := by dsimp only [dats]
theorem after_out10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d
theorem before_in6 (c : Dev nD) (t : Fin cfg0.N) (d) : (dats m 0 c).before 6 t d = iblk m c 6 t :=
  before_in6_of m (dats m 0 c) (A_eq m c 6) (after_in6 m c) t d
theorem before_in7 (c : Dev nD) (t : Fin cfg0.N) (d) : (dats m 0 c).before 7 t d = iblk m c 7 t :=
  before_in7_of m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out8, after_out9, after_out10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Around

end
-- ==== Proof.KernelIdealRun.lean ====
/-
  The run of the per-pixel Gaussian blend, at any float instance: every weakly fair execution of @main terminates
  without a fault; the three colour planes end at what the region's proof data computes block by block, every buffer
  the region bypasses at what the stacking lines after it leave there, and the six argument arrays end as launched.
-/
import proofs.«121615_j16518444220960_2_alg».proof.Proof.KernelIdealBody

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What every buffer holds after the stacking lines: those lines run from the region's exit, where the region's arrays
    hold what the proof data computes and every other buffer what the region found. -/
abbrev final (c : Dev nD) (b : Ref sig .tc) : Buf (Elt F) ((c.tc : Thread nD τ).loc b) :=
  Pipeline.afterTail₀ cfgs (dats m) 0 (V0 m) [hostOps1] c b

set_option backward.isDefEq.respectTransparency.types false in
/-- From any memory with zero counters every weakly fair execution of @main terminates, and every final state has each
    array of the region at what the library computes from the proof data and every other unscoped buffer at `final`. -/
theorem run_main : θ_run defs (onTc (τ := τ) (main (F := F))) (s₀ m ρ) (Pipeline.FramePost cfgs (dats m) 0 (final m)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- A buffer that is no array of the region and that no stacking line writes ends as the region found it. -/
theorem final_of_untouched (c : Dev nD) (b : Ref sig .tc) (hb : ∀ w, Pipeline.arrRef spec0 w ≠ b)
    (hw : ∀ op ∈ (hostOps1 : List (HloOp τ sig (Elt F))), Proc.devRef .tc b ∉ op.writes) : final m c b = V m c b := by
  unfold final Pipeline.afterTail₀
  rw [StableHlo.after_of_forall_not_mem _ _ (by simpa only [List.flatten_cons, List.flatten_nil, List.append_nil] using hw)]
  exact Pipeline.withArrays_of_ne _ c _ _ b hb

/-- Argument 0 is no array of the region and no stacking line writes it. -/
theorem final_main_arg0 (c : Dev nD) : final m c main_arg0 = m ((c : Thread nD τ).loc main_arg0) :=
  (final_of_untouched m c main_arg0 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg0 m c)
/-- Argument 1 is no array of the region and no stacking line writes it. -/
theorem final_main_arg1 (c : Dev nD) : final m c main_arg1 = m ((c : Thread nD τ).loc main_arg1) :=
  (final_of_untouched m c main_arg1 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg1 m c)
/-- Argument 2 is no array of the region and no stacking line writes it. -/
theorem final_main_arg2 (c : Dev nD) : final m c main_arg2 = m ((c : Thread nD τ).loc main_arg2) :=
  (final_of_untouched m c main_arg2 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg2 m c)
/-- Argument 3 is no array of the region and no stacking line writes it. -/
theorem final_main_arg3 (c : Dev nD) : final m c main_arg3 = m ((c : Thread nD τ).loc main_arg3) :=
  (final_of_untouched m c main_arg3 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg3 m c)
/-- Argument 4 is no array of the region and no stacking line writes it. -/
theorem final_main_arg4 (c : Dev nD) : final m c main_arg4 = m ((c : Thread nD τ).loc main_arg4) :=
  (final_of_untouched m c main_arg4 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg4 m c)
/-- Argument 5 is no array of the region and no stacking line writes it. -/
theorem final_main_arg5 (c : Dev nD) : final m c main_arg5 = m ((c : Thread nD τ).loc main_arg5) :=
  (final_of_untouched m c main_arg5 (by decide) (by
    intro op hop
    simp only [hostOps1, List.mem_cons, List.mem_nil_iff, or_false] at hop
    rcases hop with rfl | rfl | rfl | rfl
    all_goals simp only [StableHlo.unary_writes, StableHlo.nary_writes, Finset.mem_singleton]
    all_goals exact StableHlo.devRef_ne_of_ne (by decide))).trans (V_main_arg5 m c)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (final_main_arg0 m c),
      ((h c).2 main_arg1 (Pipeline.mem_restRefs_of main_arg1 (by decide) (by decide))).trans (final_main_arg1 m c),
      ((h c).2 main_arg2 (Pipeline.mem_restRefs_of main_arg2 (by decide) (by decide))).trans (final_main_arg2 m c),
      ((h c).2 main_arg3 (Pipeline.mem_restRefs_of main_arg3 (by decide) (by decide))).trans (final_main_arg3 m c),
      ((h c).2 main_arg4 (Pipeline.mem_restRefs_of main_arg4 (by decide) (by decide))).trans (final_main_arg4 m c),
      ((h c).2 main_arg5 (Pipeline.mem_restRefs_of main_arg5 (by decide) (by decide))).trans (final_main_arg5 m c)⟩) (run_main m ρ)

end Cert.KernelIdeal.Around

end
-- ==== Proof.Spec.lean ====
/-
  The per-pixel Gaussian blend, element by element, over the extended reals.

  A pixel at coordinates (gx, gy) sees Gaussian k, centred at (mx, my), through the exponent
  -½ · q, where q is a quadratic form of the offset (dx, dy) = (gx - mx, gy - my). One program writes q as
  A·dx² + B·dy² + C·dx·dy with the rotation folded into A, B, C; the other rotates the offset first and divides the
  squared coordinates by the squared scales. A pixel's colour channel is the sum over the Gaussians of weight times
  amplitude times colour, divided by the sum of weight times amplitude plus ε, clipped to [0, 1].
-/
import Idealize.ShloMosaic.PureOps.Ideal

noncomputable section

namespace Cert.Bridge

open Idealize.ShloMosaic

/-- The words both programs spell: ε (about one millionth), 1, 2, 0 and -½. -/
abbrev epsW : EReal := Ideal.ofBits .f32 0x358637BD#32
abbrev oneW : EReal := Ideal.ofBits .f32 0x3F800000#32
abbrev twoW : EReal := Ideal.ofBits .f32 0x40000000#32
abbrev zeroW : EReal := Ideal.ofBits .f32 0x00000000#32
abbrev mhalfW : EReal := Ideal.ofBits .f32 0xBF000000#32

/-- The quadratic form with the rotation folded into its coefficients: A·dx² + B·dy² + C·dx·dy. -/
def quadFolded (gx gy mx my A B C : EReal) : EReal :=
  ((A * (gx - mx)) * (gx - mx) + (B * (gy - my)) * (gy - my)) + (C * (gx - mx)) * (gy - my)

/-- The quadratic form of the rotated offset: (dx·c + dy·s)² / d1 + (-dx·s + dy·c)² / d2. -/
def quadRotated (gx gy mx my co si d1 d2 : EReal) : EReal :=
  Ideal.div (((gx - mx) * co + (gy - my) * si) * ((gx - mx) * co + (gy - my) * si)) d1
    + Ideal.div (((-(gx - mx)) * si + (gy - my) * co) * ((-(gx - mx)) * si + (gy - my) * co)) d2

/-- A Gaussian's weight from its exponent's quadratic form: exp(-½ · q). -/
def weight (q : EReal) : EReal := Ideal.exp (mhalfW * q)

/-- A quotient clipped to [0, 1]. -/
def clip01 (x : EReal) : EReal := min oneW (max zeroW x)

end Cert.Bridge

end
-- ==== Proof.LibAxisCasts.lean ====
/-
  Re-laid arrays read at an index given by coordinates: a unit axis inserted in the middle of a matrix, rows or
  planes repeated along a new or unit axis, a vector viewed with two leading unit axes, and the two leading axes of
  a rank-3 array merged into one (and split again).

  A shape cast keeps the row-major position of every element, so an element of the result is the operand's element
  with the same position; a broadcast reads the operand at the result's coordinates, with coordinate 0 on each of the
  operand's unit axes.  Each lemma below is that fact at one pair of shapes with both indices written by their
  coordinates, so that it applies to a printed operation by unification.
-/
import Idealize.ShloMosaic.Lib.Pipeline.Value
import Idealize.ShloMosaic.Lib.ValueIdx

namespace Idealize.ShloMosaic.AxisCasts

open Idealize.ShloMosaic Idealize.ShloMosaic.ValueIdx

variable {α : Type}

/-- An `[a, b]` matrix cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array broadcast to `[a, c, b]` reads, at `(i, u, j)`, the operand at `(i, 0, j)`: every
    middle coordinate sees the same row. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (u : Fin c) (j : Fin b) :
    broadcastTo ⟨3, ![a, c, b]⟩ x h (ix3 i u j) = x (ix3 i (0 : Fin 1) j) := by
  refine broadcastTo_apply x h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, u, j)`, the operand at `(0, u, j)`: every
    leading coordinate sees the same plane. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (u : Fin c) (j : Fin b) :
    broadcastTo ⟨3, ![a, c, b]⟩ x h (ix3 i u j) = x (ix3 (0 : Fin 1) u j) := by
  refine broadcastTo_apply x h (ix3 i u j) (ix3 (0 : Fin 1) u j) fun ax => ?_
  match ax with
  | ⟨0, _⟩ => rfl
  | ⟨1, _⟩ =>
    show u.val = if c = 1 then 0 else u.val
    split
    · have := u.isLt; omega
    · rfl
  | ⟨2, _⟩ =>
    show j.val = if b = 1 then 0 else j.val
    split
    · have := j.isLt; omega
    · rfl

/-- An `[a]` vector cast to `[1, 1, a]` reads, at `(u, u', k)`, the operand at `k`. -/
theorem shapeCast_a_11a_apply {a : ℕ} (x : (⟨1, ![a]⟩ : Shape).Idx → α)
    (h : (⟨1, ![a]⟩ : Shape).ShapeCasts ⟨3, ![1, 1, a]⟩) (u u' : Fin 1) (k : Fin a) :
    shapeCast ⟨3, ![1, 1, a]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * a + k.val
    rw [hu, hu']; omega)

/-- A `[1, 1, b]` array broadcast to `[a, c, b]` reads, at `(i, u, j)`, the operand at `(0, 0, j)`: one row
    repeated over both leading axes. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (u : Fin c) (j : Fin b) :
    broadcastTo ⟨3, ![a, c, b]⟩ x h (ix3 i u j) = x (ix3 (0 : Fin 1) (0 : Fin 1) j) := by
  refine broadcastTo_apply x h (ix3 i u j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- An `[a, c, b]` array cast to `[m, b]` (its two leading axes merged, `m = a · c`) reads, at `(r, k)`, the
    operand at `(i, u, k)` where `r = i · c + u`. -/
theorem shapeCast_acb_mb_apply {a c b m : ℕ} (x : (⟨3, ![a, c, b]⟩ : Shape).Idx → α)
    (h : (⟨3, ![a, c, b]⟩ : Shape).ShapeCasts ⟨2, ![m, b]⟩) (r : Fin m) (k : Fin b) (i : Fin a) (u : Fin c)
    (hr : r.val = i.val * c + u.val) :
    shapeCast ⟨2, ![m, b]⟩ x h (ix2 r k) = x (ix3 i u k) :=
  shapeCast_apply x h _ _ (by
    rw [Shape.rowMajor_val_three, Shape.rowMajor_val_two]
    show (i.val * c + u.val) * b + k.val = r.val * b + k.val
    rw [hr])

/-- An `[m, b]` matrix cast to `[a, c, b]` (its rows split into `a` groups of `c`, `m = a · c`) reads, at
    `(i, u, k)`, the operand at `(r, k)` where `r = i · c + u`. -/
theorem shapeCast_mb_acb_apply {a c b m : ℕ} (x : (⟨2, ![m, b]⟩ : Shape).Idx → α)
    (h : (⟨2, ![m, b]⟩ : Shape).ShapeCasts ⟨3, ![a, c, b]⟩) (i : Fin a) (u : Fin c) (k : Fin b) (r : Fin m)
    (hr : r.val = i.val * c + u.val) :
    shapeCast ⟨3, ![a, c, b]⟩ x h (ix3 i u k) = x (ix2 r k) :=
  shapeCast_apply x h _ _ (by
    rw [Shape.rowMajor_val_two, Shape.rowMajor_val_three]
    show r.val * b + k.val = (i.val * c + u.val) * b + k.val
    rw [hr])

end Idealize.ShloMosaic.AxisCasts
-- ==== Proof.LibTrailingUnit.lean ====
/-
  A trailing unit axis added to a matrix and then repeated, read at an index given by coordinates.

  A shape cast keeps the row-major position of every element, so an [a, b] matrix viewed as [a, b, 1] has at (i, j, 0)
  the matrix's entry (i, j); a broadcast reads the operand at the result's coordinates with coordinate 0 on the
  operand's unit axes, so that [a, b, 1] array spread to [a, b, k] has at (i, j, u) the entry at (i, j, 0).  Together:
  a matrix repeated k times along a new last axis (the first step of turning a matrix of bins into one-hot rows).
-/
import Idealize.ShloMosaic.Lib.Pipeline.Value
import Idealize.ShloMosaic.Lib.ValueIdx

namespace Idealize.ShloMosaic.TrailingUnit

open Idealize.ShloMosaic Idealize.ShloMosaic.ValueIdx

variable {α : Type}

/-- An `[a, b]` matrix cast to `[a, b, 1]` reads, at `(i, j, u)`, the operand at `(i, j)`: both indices have
    row-major position `i · b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` array broadcast to `[a, b, k]` reads, at `(i, j, u)`, the operand at `(i, j, 0)`: every trailing
    coordinate sees the same entry. -/
theorem broadcastTo_ab1_abk_apply {a b k : ℕ} (x : (⟨3, ![a, b, 1]⟩ : Shape).Idx → α)
    (h : (⟨3, ![a, b, 1]⟩ : Shape).Broadcasts ⟨3, ![a, b, k]⟩) (i : Fin a) (j : Fin b) (u : Fin k) :
    broadcastTo ⟨3, ![a, b, k]⟩ x h (ix3 i j u) = x (ix3 i j (0 : Fin 1)) := by
  refine broadcastTo_apply x h (ix3 i j u) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A matrix given a trailing unit axis and repeated `k` times along it: entry `(p, q, u)` is the matrix's entry `(p, q)`. -/
theorem depth_apply {a b k : ℕ} (d : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, k]⟩)
    (p : Fin a) (q : Fin b) (u : Fin k) :
    broadcastTo ⟨3, ![a, b, k]⟩ (shapeCast ⟨3, ![a, b, 1]⟩ d h1) h2 (ix3 p q u) = d (ix2 p q) := by
  rw [broadcastTo_ab1_abk_apply, shapeCast_ab_ab1_apply]

end Idealize.ShloMosaic.TrailingUnit
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.KernelPayload.lean ====
/-
  What the body of the per-pixel Gaussian blend computes, read at a pixel of its 32-row tile, at the ideal values.

  The body spreads the two coordinate planes along a new last axis of length 256 and the five parameter vectors along
  the two pixel axes, forms each (pixel, Gaussian) weight exp(-½ · (A·dx² + B·dy² + C·dx·dy)), flattens the pixels to
  16384 rows and multiplies by the [256, 4] colour matrix. So entry (r, w, j) of the product is the sum over the
  Gaussians of the pixel's weight times the matrix's column j, and each stored plane is the clipped quotient of one of
  the first three columns by the fourth plus ε.
-/
import proofs.«121615_j16518444220960_2_alg».proof.Proof.Gen.KernelIdeal.Skeleton
import proofs.«121615_j16518444220960_2_alg».proof.Proof.Spec
import proofs.«121615_j16518444220960_2_alg».proof.Proof.LibAxisCasts
import proofs.«121615_j16518444220960_2_alg».proof.Proof.LibTrailingUnit
import proofs.«121615_j16518444220960_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.KernelIdeal Cert.KernelIdeal.Gen

variable [Cert.KernelIdeal.Facts]

/-- A coordinate plane given a trailing unit axis and repeated along it reads, at (r, w, k), the plane at (r, w). -/
theorem plane_spread (v : Vec Ideal S32x512 .f32) (r : Fin 32) (w : Fin 512) (k : Fin 256) :
    broadcastTo S32x512x256 (shapeCast S32x512x1 (shapeCast S32x512 v Facts₀.shapeCasts_S32x512_S32x512) Facts₀.shapeCasts_S32x512_S32x512x1)
      Facts₀.broadcasts_S32x512x1_S32x512x256 (ix3 r w k) = v (ix2 r w) := by
  rw [TrailingUnit.depth_apply, shapeCast_self]

/-- A parameter vector viewed as [1, 1, 256] and repeated over the pixels reads, at (r, w, k), the vector at k. -/
theorem lane_spread (v : Vec Ideal S256 .f32) (r : Fin 32) (w : Fin 512) (k : Fin 256) :
    broadcastTo S32x512x256 (shapeCast S1x1x256 (shapeCast S256 v Facts₀.shapeCasts_S256_S256) Facts₀.shapeCasts_S256_S1x1x256)
      Facts₀.broadcasts_S1x1x256_S32x512x256 (ix3 r w k) = v (ix1 k) := by
  rw [AxisCasts.broadcastTo_11b_acb_apply, AxisCasts.shapeCast_a_11a_apply, shapeCast_self]

/-- The exponential of an array reads elementwise. -/
theorem exp_at {s : Shape} {φ : FTy} (a : FVec Ideal s φ) (i : s.Idx) : exp a i = Ideal.exp (a i) := rfl

/-- Entry (r, w, j) of the tile's product: the sum over the Gaussians of the pixel's weight times column j of the
    colour matrix. -/
theorem prod_apply (x0 x1 : Vec Ideal S32x512 .f32) (x2 x3 x4 x5 x6 : Vec Ideal S256 .f32) (x7 : Vec Ideal S256x4 .f32)
    (r : Fin 32) (w : Fin 512) (j : Fin 4) :
    k0_pay5 x0 x1 x2 x3 x4 x5 x6 x7 (ix3 r w j)
      = ∑ k : Fin 256, weight (quadFolded (x0 (ix2 r w)) (x1 (ix2 r w)) (x2 (ix1 k)) (x3 (ix1 k)) (x4 (ix1 k)) (x5 (ix1 k)) (x6 (ix1 k)))
          * x7 (ix2 k j) := by
  unfold k0_pay5
  refine (AxisCasts.shapeCast_mb_acb_apply _ _ r w j ⟨r.val * 512 + w.val, by omega⟩ rfl).trans ?_
  refine (PlainMatmul.matmul_zero_apply _ rfl rfl rfl rfl rfl rfl none _ _ _ _).trans ?_
  refine Finset.sum_congr rfl fun k _ => ?_
  have e7 : shapeCast S256x4 x7 Facts₀.shapeCasts_S256x4_S256x4 (ix2 k j) = x7 (ix2 k j) := by rw [shapeCast_self]
  refine congr (congrArg HMul.hMul ?_) e7
  refine (AxisCasts.shapeCast_acb_mb_apply _ _ ⟨r.val * 512 + w.val, by omega⟩ k r w rfl).trans ?_
  simp only [exp_at, mulf_apply, addf_apply, subf_apply, broadcast_apply]
  rw [plane_spread x0 r w k, plane_spread x1 r w k, lane_spread x2 r w k, lane_spread x3 r w k, lane_spread x4 r w k,
    lane_spread x5 r w k, lane_spread x6 r w k]
  rfl

/-- Column 0 of the [32, 512, 4] product as a plane: entry (r, w) is the product's entry (r, w, 0). -/
theorem column0_apply (v : FVec Ideal S32x512x4 .f32) (hs : S32x512x4.Slices ![0, 0, 0] S32x512x1) (r : Fin 32) (w : Fin 512) :
    shapeCast S32x512 (extractStridedSlice S32x512x1 ![0, 0, 0] v hs) Facts₀.shapeCasts_S32x512x1_S32x512 (ix2 r w)
      = v (ix3 r w (0 : Fin 4)) := by
  refine (shapeCast_apply _ _ (ix2 r w) (ix3 r w (0 : Fin 1)) (by
    rw [Shape.rowMajor_val_three, Shape.rowMajor_val_two]
    show (r.val * 512 + w.val) * 1 + 0 = r.val * 512 + w.val
    omega)).trans ?_
  exact extractStridedSlice_apply ![0, 0, 0] v hs (ix3 r w (0 : Fin 1)) (ix3 r w (0 : Fin 4)) (fun a => match a with
    | ⟨0, _⟩ => by show r.val = 0 + r.val; omega
    | ⟨1, _⟩ => by show w.val = 0 + w.val; omega
    | ⟨2, _⟩ => by show 0 = 0 + 0; omega)

/-- Column 1 of the [32, 512, 4] product as a plane: entry (r, w) is the product's entry (r, w, 1). -/
theorem column1_apply (v : FVec Ideal S32x512x4 .f32) (hs : S32x512x4.Slices ![0, 0, 1] S32x512x1) (r : Fin 32) (w : Fin 512) :
    shapeCast S32x512 (extractStridedSlice S32x512x1 ![0, 0, 1] v hs) Facts₀.shapeCasts_S32x512x1_S32x512 (ix2 r w)
      = v (ix3 r w (1 : Fin 4)) := by
  refine (shapeCast_apply _ _ (ix2 r w) (ix3 r w (0 : Fin 1)) (by
    rw [Shape.rowMajor_val_three, Shape.rowMajor_val_two]
    show (r.val * 512 + w.val) * 1 + 0 = r.val * 512 + w.val
    omega)).trans ?_
  exact extractStridedSlice_apply ![0, 0, 1] v hs (ix3 r w (0 : Fin 1)) (ix3 r w (1 : Fin 4)) (fun a => match a with
    | ⟨0, _⟩ => by show r.val = 0 + r.val; omega
    | ⟨1, _⟩ => by show w.val = 0 + w.val; omega
    | ⟨2, _⟩ => by show 1 = 1 + 0; omega)

/-- Column 2 of the [32, 512, 4] product as a plane: entry (r, w) is the product's entry (r, w, 2). -/
theorem column2_apply (v : FVec Ideal S32x512x4 .f32) (hs : S32x512x4.Slices ![0, 0, 2] S32x512x1) (r : Fin 32) (w : Fin 512) :
    shapeCast S32x512 (extractStridedSlice S32x512x1 ![0, 0, 2] v hs) Facts₀.shapeCasts_S32x512x1_S32x512 (ix2 r w)
      = v (ix3 r w (2 : Fin 4)) := by
  refine (shapeCast_apply _ _ (ix2 r w) (ix3 r w (0 : Fin 1)) (by
    rw [Shape.rowMajor_val_three, Shape.rowMajor_val_two]
    show (r.val * 512 + w.val) * 1 + 0 = r.val * 512 + w.val
    omega)).trans ?_
  exact extractStridedSlice_apply ![0, 0, 2] v hs (ix3 r w (0 : Fin 1)) (ix3 r w (2 : Fin 4)) (fun a => match a with
    | ⟨0, _⟩ => by show r.val = 0 + r.val; omega
    | ⟨1, _⟩ => by show w.val = 0 + w.val; omega
    | ⟨2, _⟩ => by show 2 = 2 + 0; omega)

/-- Column 3 of the [32, 512, 4] product as a plane: entry (r, w) is the product's entry (r, w, 3). -/
theorem column3_apply (v : FVec Ideal S32x512x4 .f32) (hs : S32x512x4.Slices ![0, 0, 3] S32x512x1) (r : Fin 32) (w : Fin 512) :
    shapeCast S32x512 (extractStridedSlice S32x512x1 ![0, 0, 3] v hs) Facts₀.shapeCasts_S32x512x1_S32x512 (ix2 r w)
      = v (ix3 r w (3 : Fin 4)) := by
  refine (shapeCast_apply _ _ (ix2 r w) (ix3 r w (0 : Fin 1)) (by
    rw [Shape.rowMajor_val_three, Shape.rowMajor_val_two]
    show (r.val * 512 + w.val) * 1 + 0 = r.val * 512 + w.val
    omega)).trans ?_
  exact extractStridedSlice_apply ![0, 0, 3] v hs (ix3 r w (0 : Fin 1)) (ix3 r w (3 : Fin 4)) (fun a => match a with
    | ⟨0, _⟩ => by show r.val = 0 + r.val; omega
    | ⟨1, _⟩ => by show w.val = 0 + w.val; omega
    | ⟨2, _⟩ => by show 3 = 3 + 0; omega)

/-- Stored plane 0 at a pixel: the clipped quotient of product column 0 by column 3 plus ε. -/
theorem pay2_apply (v : FVec Ideal S32x512x4 .f32) (r : Fin 32) (w : Fin 512) :
    k0_pay2 v (ix2 r w) = clip01 (Ideal.div (v (ix3 r w (0 : Fin 4))) (v (ix3 r w (3 : Fin 4)) + epsW)) := by
  unfold k0_pay2 k0_pay1
  simp only [minimumf_apply, maximumf_apply, divf_apply, addf_apply, broadcast_apply, column0_apply, column3_apply]
  rfl

/-- Stored plane 1 at a pixel: the clipped quotient of product column 1 by column 3 plus ε. -/
theorem pay3_apply (v : FVec Ideal S32x512x4 .f32) (r : Fin 32) (w : Fin 512) :
    k0_pay3 v (ix2 r w) = clip01 (Ideal.div (v (ix3 r w (1 : Fin 4))) (v (ix3 r w (3 : Fin 4)) + epsW)) := by
  unfold k0_pay3 k0_pay1
  simp only [minimumf_apply, maximumf_apply, divf_apply, addf_apply, broadcast_apply, column1_apply, column3_apply]
  rfl

/-- Stored plane 2 at a pixel: the clipped quotient of product column 2 by column 3 plus ε. -/
theorem pay4_apply (v : FVec Ideal S32x512x4 .f32) (r : Fin 32) (w : Fin 512) :
    k0_pay4 v (ix2 r w) = clip01 (Ideal.div (v (ix3 r w (2 : Fin 4))) (v (ix3 r w (3 : Fin 4)) + epsW)) := by
  unfold k0_pay4 k0_pay1
  simp only [minimumf_apply, maximumf_apply, divf_apply, addf_apply, broadcast_apply, column2_apply, column3_apply]
  rfl

/-- Channel j's sum at a pixel with coordinates (gx, gy): over the Gaussians, the weight times column j of the colour matrix. -/
def chan (gx gy : EReal) (mx my A B C : (⟨1, ![256]⟩ : Shape).Idx → EReal) (cw : (⟨2, ![256, 4]⟩ : Shape).Idx → EReal)
    (j : Fin 4) : EReal :=
  ∑ k : Fin 256, weight (quadFolded gx gy (mx (ix1 k)) (my (ix1 k)) (A (ix1 k)) (B (ix1 k)) (C (ix1 k))) * cw (ix2 k j)

/-- Colour channel j of a pixel: its sum over the fourth column's sum plus ε, clipped. -/
def pixel (gx gy : EReal) (mx my A B C : (⟨1, ![256]⟩ : Shape).Idx → EReal) (cw : (⟨2, ![256, 4]⟩ : Shape).Idx → EReal)
    (j : Fin 4) : EReal :=
  clip01 (Ideal.div (chan gx gy mx my A B C cw j) (chan gx gy mx my A B C cw 3 + epsW))

/-- Stored plane 0 of a tile at a pixel of the tile, from the eight input blocks. -/
theorem stored0_at (x0 x1 : Vec Ideal S32x512 .f32) (x2 x3 x4 x5 x6 : Vec Ideal S256 .f32) (x7 : Vec Ideal S256x4 .f32)
    (p : S32x512.Idx) :
    k0_pay2 (k0_pay5 x0 x1 x2 x3 x4 x5 x6 x7) p = pixel (x0 p) (x1 p) x2 x3 x4 x5 x6 x7 (0 : Fin 4) := by
  obtain ⟨r, w, rfl⟩ : ∃ (r : Fin 32) (w : Fin 512), p = ix2 r w := ⟨p 0, p 1, eq_ix2 p⟩
  rw [pay2_apply, prod_apply, prod_apply]
  rfl

/-- Stored plane 1 of a tile at a pixel of the tile, from the eight input blocks. -/
theorem stored1_at (x0 x1 : Vec Ideal S32x512 .f32) (x2 x3 x4 x5 x6 : Vec Ideal S256 .f32) (x7 : Vec Ideal S256x4 .f32)
    (p : S32x512.Idx) :
    k0_pay3 (k0_pay5 x0 x1 x2 x3 x4 x5 x6 x7) p = pixel (x0 p) (x1 p) x2 x3 x4 x5 x6 x7 (1 : Fin 4) := by
  obtain ⟨r, w, rfl⟩ : ∃ (r : Fin 32) (w : Fin 512), p = ix2 r w := ⟨p 0, p 1, eq_ix2 p⟩
  rw [pay3_apply, prod_apply, prod_apply]
  rfl

/-- Stored plane 2 of a tile at a pixel of the tile, from the eight input blocks. -/
theorem stored2_at (x0 x1 : Vec Ideal S32x512 .f32) (x2 x3 x4 x5 x6 : Vec Ideal S256 .f32) (x7 : Vec Ideal S256x4 .f32)
    (p : S32x512.Idx) :
    k0_pay4 (k0_pay5 x0 x1 x2 x3 x4 x5 x6 x7) p = pixel (x0 p) (x1 p) x2 x3 x4 x5 x6 x7 (2 : Fin 4) := by
  obtain ⟨r, w, rfl⟩ : ∃ (r : Fin 32) (w : Fin 512), p = ix2 r w := ⟨p 0, p 1, eq_ix2 p⟩
  rw [pay4_apply, prod_apply, prod_apply]
  rfl

end Cert.Bridge

end
-- ==== Proof.KernelPlanes.lean ====
/-
  The three colour planes of the per-pixel Gaussian blend after the region, at the ideal values.

  The grid's sixteen points each take 32 rows of the image. At point t the two coordinate planes' blocks are rows
  32·t … 32·t + 31 of those planes, the five parameter vectors and the colour matrix come whole, and the three output
  blocks go back to the same rows. What a point writes back is therefore that row band of ONE function of the arrays
  the region finds — a pixel's clipped quotient of weighted sums — and the bands tile the image, so each plane ends
  holding that function everywhere.
-/
import proofs.«121615_j16518444220960_2_alg».proof.Proof.KernelIdealRun
import proofs.«121615_j16518444220960_2_alg».proof.Proof.KernelPayload

set_option maxRecDepth 16384

noncomputable section

open scoped BigOperators

namespace Cert.Bridge

open Cert.KernelIdeal Cert.KernelIdeal.Gen Cert.KernelIdeal.Around
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- Colour plane j of the image as one function of the eight arrays the region finds. -/
def planeOf (j : Fin 4) : S512x512.Idx → EReal := fun i =>
  pixel (V m c main_v50 i) (V m c main_v52 i) (V m c main_v46) (V m c main_v48) (V m c main_v21) (V m c main_v26)
    (V m c main_v31) (V m c main_v44) j

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the row-band windows sit at block row t, column 0; the whole-array windows at 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 1) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## The input blocks at a point -/

/-- Coordinate plane 0's block at point t, read where output plane 0's block puts the pixel: the same rows. -/
theorem band0_read8 (t : Fin cfg0.N) (j : ((cfg0.win 8).xblock (cfg0.grid.coords t)).Idx) :
    iblk m c 0 t j = V m c main_v50 (((cfg0.win 8).blk t).view.emb j) := by
  unfold iblk
  show V m c main_v50 (((cfg0.win 0).blk t).view.emb j) = V m c main_v50 (((cfg0.win 8).blk t).view.emb j)
  refine congrArg _ ?_
  obtain ⟨e00, e01, e10, e11, e2, e3, e4, e5, e6, e70, e71, e80, e81, e90, e91, e100, e101⟩ := idx_facts t
  funext a; apply Fin.ext
  match a with
  | ⟨0, _⟩ => show win0_0.index t (0 : Fin 2) * 32 + 1 * (j 0).val = win0_8.index t (0 : Fin 2) * 32 + 1 * (j 0).val; omega
  | ⟨1, _⟩ => show win0_0.index t (1 : Fin 2) * 512 + 1 * (j 1).val = win0_8.index t (1 : Fin 2) * 512 + 1 * (j 1).val; omega
/-- Coordinate plane 1's block at point t, read where output plane 0's block puts the pixel: the same rows. -/
theorem band1_read8 (t : Fin cfg0.N) (j : ((cfg0.win 8).xblock (cfg0.grid.coords t)).Idx) :
    iblk m c 1 t j = V m c main_v52 (((cfg0.win 8).blk t).view.emb j) := by
  unfold iblk
  show V m c main_v52 (((cfg0.win 1).blk t).view.emb j) = V m c main_v52 (((cfg0.win 8).blk t).view.emb j)
  refine congrArg _ ?_
  obtain ⟨e00, e01, e10, e11, e2, e3, e4, e5, e6, e70, e71, e80, e81, e90, e91, e100, e101⟩ := idx_facts t
  funext a; apply Fin.ext
  match a with
  | ⟨0, _⟩ => show win0_1.index t (0 : Fin 2) * 32 + 1 * (j 0).val = win0_8.index t (0 : Fin 2) * 32 + 1 * (j 0).val; omega
  | ⟨1, _⟩ => show win0_1.index t (1 : Fin 2) * 512 + 1 * (j 1).val = win0_8.index t (1 : Fin 2) * 512 + 1 * (j 1).val; omega
/-- Coordinate plane 0's block at point t, read where output plane 1's block puts the pixel: the same rows. -/
theorem band0_read9 (t : Fin cfg0.N) (j : ((cfg0.win 9).xblock (cfg0.grid.coords t)).Idx) :
    iblk m c 0 t j = V m c main_v50 (((cfg0.win 9).blk t).view.emb j) := by
  unfold iblk
  show V m c main_v50 (((cfg0.win 0).blk t).view.emb j) = V m c main_v50 (((cfg0.win 9).blk t).view.emb j)
  refine congrArg _ ?_
  obtain ⟨e00, e01, e10, e11, e2, e3, e4, e5, e6, e70, e71, e80, e81, e90, e91, e100, e101⟩ := idx_facts t
  funext a; apply Fin.ext
  match a with
  | ⟨0, _⟩ => show win0_0.index t (0 : Fin 2) * 32 + 1 * (j 0).val = win0_9.index t (0 : Fin 2) * 32 + 1 * (j 0).val; omega
  | ⟨1, _⟩ => show win0_0.index t (1 : Fin 2) * 512 + 1 * (j 1).val = win0_9.index t (1 : Fin 2) * 512 + 1 * (j 1).val; omega
/-- Coordinate plane 1's block at point t, read where output plane 1's block puts the pixel: the same rows. -/
theorem band1_read9 (t : Fin cfg0.N) (j : ((cfg0.win 9).xblock (cfg0.grid.coords t)).Idx) :
    iblk m c 1 t j = V m c main_v52 (((cfg0.win 9).blk t).view.emb j) := by
  unfold iblk
  show V m c main_v52 (((cfg0.win 1).blk t).view.emb j) = V m c main_v52 (((cfg0.win 9).blk t).view.emb j)
  refine congrArg _ ?_
  obtain ⟨e00, e01, e10, e11, e2, e3, e4, e5, e6, e70, e71, e80, e81, e90, e91, e100, e101⟩ := idx_facts t
  funext a; apply Fin.ext
  match a with
  | ⟨0, _⟩ => show win0_1.index t (0 : Fin 2) * 32 + 1 * (j 0).val = win0_9.index t (0 : Fin 2) * 32 + 1 * (j 0).val; omega
  | ⟨1, _⟩ => show win0_1.index t (1 : Fin 2) * 512 + 1 * (j 1).val = win0_9.index t (1 : Fin 2) * 512 + 1 * (j 1).val; omega
/-- Coordinate plane 0's block at point t, read where output plane 2's block puts the pixel: the same rows. -/
theorem band0_read10 (t : Fin cfg0.N) (j : ((cfg0.win 10).xblock (cfg0.grid.coords t)).Idx) :
    iblk m c 0 t j = V m c main_v50 (((cfg0.win 10).blk t).view.emb j) := by
  unfold iblk
  show V m c main_v50 (((cfg0.win 0).blk t).view.emb j) = V m c main_v50 (((cfg0.win 10).blk t).view.emb j)
  refine congrArg _ ?_
  obtain ⟨e00, e01, e10, e11, e2, e3, e4, e5, e6, e70, e71, e80, e81, e90, e91, e100, e101⟩ := idx_facts t
  funext a; apply Fin.ext
  match a with
  | ⟨0, _⟩ => show win0_0.index t (0 : Fin 2) * 32 + 1 * (j 0).val = win0_10.index t (0 : Fin 2) * 32 + 1 * (j 0).val; omega
  | ⟨1, _⟩ => show win0_0.index t (1 : Fin 2) * 512 + 1 * (j 1).val = win0_10.index t (1 : Fin 2) * 512 + 1 * (j 1).val; omega
/-- Coordinate plane 1's block at point t, read where output plane 2's block puts the pixel: the same rows. -/
theorem band1_read10 (t : Fin cfg0.N) (j : ((cfg0.win 10).xblock (cfg0.grid.coords t)).Idx) :
    iblk m c 1 t j = V m c main_v52 (((cfg0.win 10).blk t).view.emb j) := by
  unfold iblk
  show V m c main_v52 (((cfg0.win 1).blk t).view.emb j) = V m c main_v52 (((cfg0.win 10).blk t).view.emb j)
  refine congrArg _ ?_
  obtain ⟨e00, e01, e10, e11, e2, e3, e4, e5, e6, e70, e71, e80, e81, e90, e91, e100, e101⟩ := idx_facts t
  funext a; apply Fin.ext
  match a with
  | ⟨0, _⟩ => show win0_1.index t (0 : Fin 2) * 32 + 1 * (j 0).val = win0_10.index t (0 : Fin 2) * 32 + 1 * (j 0).val; omega
  | ⟨1, _⟩ => show win0_1.index t (1 : Fin 2) * 512 + 1 * (j 1).val = win0_10.index t (1 : Fin 2) * 512 + 1 * (j 1).val; omega

/-- Parameter vector 0's block at any point is the whole vector. -/
theorem whole2_eq (t : Fin cfg0.N) : (iblk m c 2 t : S256.Idx → EReal) = V m c main_v46 := by
  funext i
  unfold iblk
  show V m c main_v46 (((cfg0.win 2).blk t).view.emb i) = V m c main_v46 i
  refine congrArg _ ?_
  obtain ⟨e00, e01, e10, e11, e2, e3, e4, e5, e6, e70, e71, e80, e81, e90, e91, e100, e101⟩ := idx_facts t
  funext a; apply Fin.ext
  match a with
  | ⟨0, _⟩ => show win0_2.index t (0 : Fin 1) * 256 + 1 * (i 0).val = (i 0).val; omega
/-- Parameter vector 1's block at any point is the whole vector. -/
theorem whole3_eq (t : Fin cfg0.N) : (iblk m c 3 t : S256.Idx → EReal) = V m c main_v48 := by
  funext i
  unfold iblk
  show V m c main_v48 (((cfg0.win 3).blk t).view.emb i) = V m c main_v48 i
  refine congrArg _ ?_
  obtain ⟨e00, e01, e10, e11, e2, e3, e4, e5, e6, e70, e71, e80, e81, e90, e91, e100, e101⟩ := idx_facts t
  funext a; apply Fin.ext
  match a with
  | ⟨0, _⟩ => show win0_3.index t (0 : Fin 1) * 256 + 1 * (i 0).val = (i 0).val; omega
/-- Parameter vector 2's block at any point is the whole vector. -/
theorem whole4_eq (t : Fin cfg0.N) : (iblk m c 4 t : S256.Idx → EReal) = V m c main_v21 := by
  funext i
  unfold iblk
  show V m c main_v21 (((cfg0.win 4).blk t).view.emb i) = V m c main_v21 i
  refine congrArg _ ?_
  obtain ⟨e00, e01, e10, e11, e2, e3, e4, e5, e6, e70, e71, e80, e81, e90, e91, e100, e101⟩ := idx_facts t
  funext a; apply Fin.ext
  match a with
  | ⟨0, _⟩ => show win0_4.index t (0 : Fin 1) * 256 + 1 * (i 0).val = (i 0).val; omega
/-- Parameter vector 3's block at any point is the whole vector. -/
theorem whole5_eq (t : Fin cfg0.N) : (iblk m c 5 t : S256.Idx → EReal) = V m c main_v26 := by
  funext i
  unfold iblk
  show V m c main_v26 (((cfg0.win 5).blk t).view.emb i) = V m c main_v26 i
  refine congrArg _ ?_
  obtain ⟨e00, e01, e10, e11, e2, e3, e4, e5, e6, e70, e71, e80, e81, e90, e91, e100, e101⟩ := idx_facts t
  funext a; apply Fin.ext
  match a with
  | ⟨0, _⟩ => show win0_5.index t (0 : Fin 1) * 256 + 1 * (i 0).val = (i 0).val; omega
/-- Parameter vector 4's block at any point is the whole vector. -/
theorem whole6_eq (t : Fin cfg0.N) : (iblk m c 6 t : S256.Idx → EReal) = V m c main_v31 := by
  funext i
  unfold iblk
  show V m c main_v31 (((cfg0.win 6).blk t).view.emb i) = V m c main_v31 i
  refine congrArg _ ?_
  obtain ⟨e00, e01, e10, e11, e2, e3, e4, e5, e6, e70, e71, e80, e81, e90, e91, e100, e101⟩ := idx_facts t
  funext a; apply Fin.ext
  match a with
  | ⟨0, _⟩ => show win0_6.index t (0 : Fin 1) * 256 + 1 * (i 0).val = (i 0).val; omega

/-- The colour matrix's block at any point is the whole matrix. -/
theorem whole7_eq (t : Fin cfg0.N) : (iblk m c 7 t : S256x4.Idx → EReal) = V m c main_v44 := by
  funext i
  unfold iblk
  show V m c main_v44 (((cfg0.win 7).blk t).view.emb i) = V m c main_v44 i
  refine congrArg _ ?_
  obtain ⟨e00, e01, e10, e11, e2, e3, e4, e5, e6, e70, e71, e80, e81, e90, e91, e100, e101⟩ := idx_facts t
  funext a; apply Fin.ext
  match a with
  | ⟨0, _⟩ => show win0_7.index t (0 : Fin 2) * 256 + 1 * (i 0).val = (i 0).val; omega
  | ⟨1, _⟩ => show win0_7.index t (1 : Fin 2) * 4 + 1 * (i 1).val = (i 1).val; omega

/-! ## What a point writes back, the cover, the planes -/

/-- What point t writes back into plane 0 is row band t of that plane's function. -/
theorem flushed8_eq (t : Fin cfg0.N) :
    (dats m 0 c).flushed 8 t = ((cfg0.win 8).blk t).view.read (Elt Ideal) (planeOf m c (0 : Fin 4)) := by
  show (cfg0.win 8).cut (grid0.coords t) ((dats m 0 c).after 8 t) = _
  rw [after_out8]
  unfold out8 prodOf
  rw [View.canon_unit_zero hz2]
  simp only [View.ld_unit_zero (S := S32x512) hz2, View.ld_unit_zero (S := S256) hz1, View.ld_unit_zero (S := S256x4) hz2]
  funext j
  refine (stored0_at (iblk m c 0 t) (iblk m c 1 t) (iblk m c 2 t) (iblk m c 3 t) (iblk m c 4 t) (iblk m c 5 t) (iblk m c 6 t)
    (iblk m c 7 t) j).trans ?_
  rw [View.read_apply, band0_read8 m c t j, band1_read8 m c t j, whole2_eq m c t, whole3_eq m c t, whole4_eq m c t,
    whole5_eq m c t, whole6_eq m c t, whole7_eq m c t]
  rfl

/-- An index of plane 0 is in point t's block iff each coordinate is in the block's range on its axis. -/
theorem mem_blk8 (t : Fin cfg0.N) (i : S512x512.Idx) :
    i ∈ ((cfg0.win 8).blk t).view.set ↔ ∀ a : Fin 2, win0_8.index t a * S32x512.size a ≤ (i a).val ∧ (i a).val < win0_8.index t a * S32x512.size a + S32x512.size a := by
  show i ∈ ((View.whole main_v53_0).slice (win0_8.rect t)).set ↔ _
  rw [View.set_slice_whole, Rect.mem_set_unit]
  exact Iff.rfl

/-- The row bands tile plane 0: row r is in the band of point r / 32. -/
theorem cover8 (i : S512x512.Idx) :
    ∃ t : Fin cfg0.N, (cfg0.win 8).flush t = true ∧ i ∈ ((cfg0.win 8).blk t).view.set := by
  have hi0 : (i 0).val < 512 := (i 0).isLt
  have hi1 : (i 1).val < 512 := (i 1).isLt
  have hN : grid0.N = 16 := N_0
  refine ⟨⟨(i 0).val / 32, by show (i 0).val / 32 < grid0.N; omega⟩, flush0_8 _, ?_⟩
  obtain ⟨e00, e01, e10, e11, e2, e3, e4, e5, e6, e70, e71, e80, e81, e90, e91, e100, e101⟩ :=
    idx_facts ⟨(i 0).val / 32, by show (i 0).val / 32 < grid0.N; omega⟩
  rw [mem_blk8]
  intro a
  match a with
  | ⟨0, _⟩ =>
    show win0_8.index _ (0 : Fin 2) * 32 ≤ (i 0).val ∧ (i 0).val < win0_8.index _ (0 : Fin 2) * 32 + 32
    rw [e80]; show (i 0).val / 32 * 32 ≤ (i 0).val ∧ (i 0).val < (i 0).val / 32 * 32 + 32; omega
  | ⟨1, _⟩ =>
    show win0_8.index _ (1 : Fin 2) * 512 ≤ (i 1).val ∧ (i 1).val < win0_8.index _ (1 : Fin 2) * 512 + 512
    rw [e81]; omega

/-- Plane 0 after the region is its function of the arrays the region finds. -/
theorem plane8_final : (dats m 0 c).arrAt 8 cfg0.N = planeOf m c (0 : Fin 4) :=
  (dats m 0 c).arrAt_eq_of_cover 8 (planeOf m c (0 : Fin 4)) (fun t _ => flushed8_eq m c t) (cover8)

/-- What point t writes back into plane 1 is row band t of that plane's function. -/
theorem flushed9_eq (t : Fin cfg0.N) :
    (dats m 0 c).flushed 9 t = ((cfg0.win 9).blk t).view.read (Elt Ideal) (planeOf m c (1 : Fin 4)) := by
  show (cfg0.win 9).cut (grid0.coords t) ((dats m 0 c).after 9 t) = _
  rw [after_out9]
  unfold out9 prodOf
  rw [View.canon_unit_zero hz2]
  simp only [View.ld_unit_zero (S := S32x512) hz2, View.ld_unit_zero (S := S256) hz1, View.ld_unit_zero (S := S256x4) hz2]
  funext j
  refine (stored1_at (iblk m c 0 t) (iblk m c 1 t) (iblk m c 2 t) (iblk m c 3 t) (iblk m c 4 t) (iblk m c 5 t) (iblk m c 6 t)
    (iblk m c 7 t) j).trans ?_
  rw [View.read_apply, band0_read9 m c t j, band1_read9 m c t j, whole2_eq m c t, whole3_eq m c t, whole4_eq m c t,
    whole5_eq m c t, whole6_eq m c t, whole7_eq m c t]
  rfl

/-- An index of plane 1 is in point t's block iff each coordinate is in the block's range on its axis. -/
theorem mem_blk9 (t : Fin cfg0.N) (i : S512x512.Idx) :
    i ∈ ((cfg0.win 9).blk t).view.set ↔ ∀ a : Fin 2, win0_9.index t a * S32x512.size a ≤ (i a).val ∧ (i a).val < win0_9.index t a * S32x512.size a + S32x512.size a := by
  show i ∈ ((View.whole main_v53_1).slice (win0_9.rect t)).set ↔ _
  rw [View.set_slice_whole, Rect.mem_set_unit]
  exact Iff.rfl

/-- The row bands tile plane 1: row r is in the band of point r / 32. -/
theorem cover9 (i : S512x512.Idx) :
    ∃ t : Fin cfg0.N, (cfg0.win 9).flush t = true ∧ i ∈ ((cfg0.win 9).blk t).view.set := by
  have hi0 : (i 0).val < 512 := (i 0).isLt
  have hi1 : (i 1).val < 512 := (i 1).isLt
  have hN : grid0.N = 16 := N_0
  refine ⟨⟨(i 0).val / 32, by show (i 0).val / 32 < grid0.N; omega⟩, flush0_9 _, ?_⟩
  obtain ⟨e00, e01, e10, e11, e2, e3, e4, e5, e6, e70, e71, e80, e81, e90, e91, e100, e101⟩ :=
    idx_facts ⟨(i 0).val / 32, by show (i 0).val / 32 < grid0.N; omega⟩
  rw [mem_blk9]
  intro a
  match a with
  | ⟨0, _⟩ =>
    show win0_9.index _ (0 : Fin 2) * 32 ≤ (i 0).val ∧ (i 0).val < win0_9.index _ (0 : Fin 2) * 32 + 32
    rw [e90]; show (i 0).val / 32 * 32 ≤ (i 0).val ∧ (i 0).val < (i 0).val / 32 * 32 + 32; omega
  | ⟨1, _⟩ =>
    show win0_9.index _ (1 : Fin 2) * 512 ≤ (i 1).val ∧ (i 1).val < win0_9.index _ (1 : Fin 2) * 512 + 512
    rw [e91]; omega

/-- Plane 1 after the region is its function of the arrays the region finds. -/
theorem plane9_final : (dats m 0 c).arrAt 9 cfg0.N = planeOf m c (1 : Fin 4) :=
  (dats m 0 c).arrAt_eq_of_cover 9 (planeOf m c (1 : Fin 4)) (fun t _ => flushed9_eq m c t) (cover9)

/-- What point t writes back into plane 2 is row band t of that plane's function. -/
theorem flushed10_eq (t : Fin cfg0.N) :
    (dats m 0 c).flushed 10 t = ((cfg0.win 10).blk t).view.read (Elt Ideal) (planeOf m c (2 : Fin 4)) := by
  show (cfg0.win 10).cut (grid0.coords t) ((dats m 0 c).after 10 t) = _
  rw [after_out10]
  unfold out10 prodOf
  rw [View.canon_unit_zero hz2]
  simp only [View.ld_unit_zero (S := S32x512) hz2, View.ld_unit_zero (S := S256) hz1, View.ld_unit_zero (S := S256x4) hz2]
  funext j
  refine (stored2_at (iblk m c 0 t) (iblk m c 1 t) (iblk m c 2 t) (iblk m c 3 t) (iblk m c 4 t) (iblk m c 5 t) (iblk m c 6 t)
    (iblk m c 7 t) j).trans ?_
  rw [View.read_apply, band0_read10 m c t j, band1_read10 m c t j, whole2_eq m c t, whole3_eq m c t, whole4_eq m c t,
    whole5_eq m c t, whole6_eq m c t, whole7_eq m c t]
  rfl

/-- An index of plane 2 is in point t's block iff each coordinate is in the block's range on its axis. -/
theorem mem_blk10 (t : Fin cfg0.N) (i : S512x512.Idx) :
    i ∈ ((cfg0.win 10).blk t).view.set ↔ ∀ a : Fin 2, win0_10.index t a * S32x512.size a ≤ (i a).val ∧ (i a).val < win0_10.index t a * S32x512.size a + S32x512.size a := by
  show i ∈ ((View.whole main_v53_2).slice (win0_10.rect t)).set ↔ _
  rw [View.set_slice_whole, Rect.mem_set_unit]
  exact Iff.rfl

/-- The row bands tile plane 2: row r is in the band of point r / 32. -/
theorem cover10 (i : S512x512.Idx) :
    ∃ t : Fin cfg0.N, (cfg0.win 10).flush t = true ∧ i ∈ ((cfg0.win 10).blk t).view.set := by
  have hi0 : (i 0).val < 512 := (i 0).isLt
  have hi1 : (i 1).val < 512 := (i 1).isLt
  have hN : grid0.N = 16 := N_0
  refine ⟨⟨(i 0).val / 32, by show (i 0).val / 32 < grid0.N; omega⟩, flush0_10 _, ?_⟩
  obtain ⟨e00, e01, e10, e11, e2, e3, e4, e5, e6, e70, e71, e80, e81, e90, e91, e100, e101⟩ :=
    idx_facts ⟨(i 0).val / 32, by show (i 0).val / 32 < grid0.N; omega⟩
  rw [mem_blk10]
  intro a
  match a with
  | ⟨0, _⟩ =>
    show win0_10.index _ (0 : Fin 2) * 32 ≤ (i 0).val ∧ (i 0).val < win0_10.index _ (0 : Fin 2) * 32 + 32
    rw [e100]; show (i 0).val / 32 * 32 ≤ (i 0).val ∧ (i 0).val < (i 0).val / 32 * 32 + 32; omega
  | ⟨1, _⟩ =>
    show win0_10.index _ (1 : Fin 2) * 512 ≤ (i 1).val ∧ (i 1).val < win0_10.index _ (1 : Fin 2) * 512 + 512
    rw [e101]; omega

/-- Plane 2 after the region is its function of the arrays the region finds. -/
theorem plane10_final : (dats m 0 c).arrAt 10 cfg0.N = planeOf m c (2 : Fin 4) :=
  (dats m 0 c).arrAt_eq_of_cover 10 (planeOf m c (2 : Fin 4)) (fun t _ => flushed10_eq m c t) (cover10)

end Cert.Bridge

end
-- ==== Proof.KernelImage.lean ====
/-
  The image the kernel program returns, at the ideal values: the three colour planes, each given a trailing unit axis,
  stacked along that axis. So channel j of pixel (h, w) is plane j at (h, w).
-/
import proofs.«121615_j16518444220960_2_alg».proof.Proof.KernelPlanes
import Idealize.ShloMosaic.Lib.StableHlo.Run

set_option maxRecDepth 16384

noncomputable section

open scoped BigOperators

namespace Cert.Bridge

open Cert.KernelIdeal Cert.KernelIdeal.Gen Cert.KernelIdeal.Around
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (c : Dev nD)

/-- A plane given a trailing unit axis. -/
abbrev lifted (j : Fin 4) : S512x512x1.Idx → EReal :=
  broadcastInDim S512x512x1 ![0, 1] Facts₀.bcast_S512x512_S512x512x1_0_1 (planeOf m c j)

/-- Stacks of equal planes are equal. -/
theorem stack_congr (x0 x1 x2 y0 y1 y2 : S512x512x1.Idx → EReal)
    (h : Shape.Concatenates [S512x512x1, S512x512x1, S512x512x1] S512x512x3 2) (e0 : x0 = y0) (e1 : x1 = y1) (e2 : x2 = y2) :
    concatenate S512x512x3 2 [⟨S512x512x1, x0⟩, ⟨S512x512x1, x1⟩, ⟨S512x512x1, x2⟩] h
      = concatenate S512x512x3 2 [⟨S512x512x1, y0⟩, ⟨S512x512x1, y1⟩, ⟨S512x512x1, y2⟩] h := by
  subst e0 e1 e2; rfl

/-- The returned image is the stack of the three lifted planes. -/
theorem image_eq : (final m c main_v57 : S512x512x3.Idx → EReal)
    = concatenate S512x512x3 2 [⟨S512x512x1, lifted m c 0⟩, ⟨S512x512x1, lifted m c 1⟩, ⟨S512x512x1, lifted m c 2⟩]
        Facts₀.concatenates_S512x512x1_S512x512x1_S512x512x1_S512x512x3_d2 := by
  unfold final Pipeline.afterTail₀
  show StableHlo.after hostOps1 _ (Proc.devRef .tc main_v57) = _
  after_results
  refine stack_congr _ _ _ _ _ _ _ ?_ ?_ ?_
  · show ((unary (τ := τ) (Val := Elt Ideal) main_v53_2 main_v56 _ _ _).result ((unary (τ := τ) (Val := Elt Ideal) main_v53_1 main_v55 _ _ _).result ((unary (τ := τ) (Val := Elt Ideal) main_v53_0 main_v54 _ _ _).result _))
        (Proc.devRef .tc main_v54) : S512x512x1.Idx → EReal) = _
    repeat (first | rw [unary_result] | (rw [unary_result_ne]; rotate_left; decide))
    exact congrArg _ ((Pipeline.withArrays_arr spec0 launch0.win.arr_inj c _ _ 8).trans (plane8_final m c))
  · show ((unary (τ := τ) (Val := Elt Ideal) main_v53_2 main_v56 _ _ _).result ((unary (τ := τ) (Val := Elt Ideal) main_v53_1 main_v55 _ _ _).result ((unary (τ := τ) (Val := Elt Ideal) main_v53_0 main_v54 _ _ _).result _))
        (Proc.devRef .tc main_v55) : S512x512x1.Idx → EReal) = _
    repeat (first | rw [unary_result] | (rw [unary_result_ne]; rotate_left; decide))
    exact congrArg _ ((Pipeline.withArrays_arr spec0 launch0.win.arr_inj c _ _ 9).trans (plane9_final m c))
  · show ((unary (τ := τ) (Val := Elt Ideal) main_v53_2 main_v56 _ _ _).result ((unary (τ := τ) (Val := Elt Ideal) main_v53_1 main_v55 _ _ _).result ((unary (τ := τ) (Val := Elt Ideal) main_v53_0 main_v54 _ _ _).result _))
        (Proc.devRef .tc main_v56) : S512x512x1.Idx → EReal) = _
    repeat (first | rw [unary_result] | (rw [unary_result_ne]; rotate_left; decide))
    exact congrArg _ ((Pipeline.withArrays_arr spec0 launch0.win.arr_inj c _ _ 10).trans (plane10_final m c))

/-- A plane given a trailing unit axis reads, at (h, w, 0), the plane at (h, w). -/
theorem lift_apply (p : S512x512.Idx → EReal) (h w : Fin 512) :
    broadcastInDim S512x512x1 ![0, 1] Facts₀.bcast_S512x512_S512x512x1_0_1 p (ix3 h w (0 : Fin 1)) = p (ix2 h w) :=
  broadcastInDim_apply ![0, 1] _ p (ix3 h w (0 : Fin 1)) (ix2 h w) (fun a => by
    match a with
    | ⟨0, _⟩ => show h.val = if (512 : ℕ) = 1 then 0 else h.val; rw [if_neg (by decide)]
    | ⟨1, _⟩ => show w.val = if (512 : ℕ) = 1 then 0 else w.val; rw [if_neg (by decide)])

/-- Channel 0 of a stack of three unit-depth planes is plane 0. -/
theorem stack_chan0 (p0 p1 p2 : S512x512x1.Idx → EReal) (h w : Fin 512) :
    concatenate S512x512x3 2 [⟨S512x512x1, p0⟩, ⟨S512x512x1, p1⟩, ⟨S512x512x1, p2⟩]
        Facts₀.concatenates_S512x512x1_S512x512x1_S512x512x1_S512x512x3_d2 (ix3 h w (0 : Fin 3))
      = p0 (ix3 h w (0 : Fin 1)) :=
  concatenate_apply_piece (t := S512x512x3) (2 : Fin 3) [⟨S512x512x1, p0⟩, ⟨S512x512x1, p1⟩, ⟨S512x512x1, p2⟩]
    Facts₀.concatenates_S512x512x1_S512x512x1_S512x512x1_S512x512x3_d2 (ix3 h w (0 : Fin 3)) 0 (by show (0 : ℕ) < 3; decide)
    S512x512x1 p0 rfl rfl 0 rfl (ix3 h w (0 : Fin 1)) (fun b hb => by
      match b with
      | ⟨0, _⟩ => rfl
      | ⟨1, _⟩ => rfl
      | ⟨2, _⟩ => exact absurd rfl hb) rfl

/-- Channel 1 of a stack of three unit-depth planes is plane 1. -/
theorem stack_chan1 (p0 p1 p2 : S512x512x1.Idx → EReal) (h w : Fin 512) :
    concatenate S512x512x3 2 [⟨S512x512x1, p0⟩, ⟨S512x512x1, p1⟩, ⟨S512x512x1, p2⟩]
        Facts₀.concatenates_S512x512x1_S512x512x1_S512x512x1_S512x512x3_d2 (ix3 h w (1 : Fin 3))
      = p1 (ix3 h w (0 : Fin 1)) :=
  concatenate_apply_piece (t := S512x512x3) (2 : Fin 3) [⟨S512x512x1, p0⟩, ⟨S512x512x1, p1⟩, ⟨S512x512x1, p2⟩]
    Facts₀.concatenates_S512x512x1_S512x512x1_S512x512x1_S512x512x3_d2 (ix3 h w (1 : Fin 3)) 1 (by show (1 : ℕ) < 3; decide)
    S512x512x1 p1 rfl rfl 1 rfl (ix3 h w (0 : Fin 1)) (fun b hb => by
      match b with
      | ⟨0, _⟩ => rfl
      | ⟨1, _⟩ => rfl
      | ⟨2, _⟩ => exact absurd rfl hb) rfl

/-- Channel 2 of a stack of three unit-depth planes is plane 2. -/
theorem stack_chan2 (p0 p1 p2 : S512x512x1.Idx → EReal) (h w : Fin 512) :
    concatenate S512x512x3 2 [⟨S512x512x1, p0⟩, ⟨S512x512x1, p1⟩, ⟨S512x512x1, p2⟩]
        Facts₀.concatenates_S512x512x1_S512x512x1_S512x512x1_S512x512x3_d2 (ix3 h w (2 : Fin 3))
      = p2 (ix3 h w (0 : Fin 1)) :=
  concatenate_apply_piece (t := S512x512x3) (2 : Fin 3) [⟨S512x512x1, p0⟩, ⟨S512x512x1, p1⟩, ⟨S512x512x1, p2⟩]
    Facts₀.concatenates_S512x512x1_S512x512x1_S512x512x1_S512x512x3_d2 (ix3 h w (2 : Fin 3)) 2 (by show (2 : ℕ) < 3; decide)
    S512x512x1 p2 rfl rfl 2 rfl (ix3 h w (0 : Fin 1)) (fun b hb => by
      match b with
      | ⟨0, _⟩ => rfl
      | ⟨1, _⟩ => rfl
      | ⟨2, _⟩ => exact absurd rfl hb) rfl

/-- Channel 0 of pixel (h, w) of the returned image is plane 0 at (h, w). -/
theorem image_chan0 (h w : Fin 512) :
    (final m c main_v57 : S512x512x3.Idx → EReal) (ix3 h w (0 : Fin 3)) = planeOf m c (0 : Fin 4) (ix2 h w) :=
  (congrFun (image_eq m c) _).trans ((stack_chan0 _ _ _ h w).trans (lift_apply _ h w))

/-- Channel 1 of pixel (h, w) of the returned image is plane 1 at (h, w). -/
theorem image_chan1 (h w : Fin 512) :
    (final m c main_v57 : S512x512x3.Idx → EReal) (ix3 h w (1 : Fin 3)) = planeOf m c (1 : Fin 4) (ix2 h w) :=
  (congrFun (image_eq m c) _).trans ((stack_chan1 _ _ _ h w).trans (lift_apply _ h w))

/-- Channel 2 of pixel (h, w) of the returned image is plane 2 at (h, w). -/
theorem image_chan2 (h w : Fin 512) :
    (final m c main_v57 : S512x512x3.Idx → EReal) (ix3 h w (2 : Fin 3)) = planeOf m c (2 : Fin 4) (ix2 h w) :=
  (congrFun (image_eq m c) _).trans ((stack_chan2 _ _ _ h w).trans (lift_apply _ h w))

end Cert.Bridge

end
-- ==== Proof.KernelHostValues.lean ====
/-
  What the host lines before the region leave in the arrays the region stages, at the extended reals, named by the
  reference program's stages.

  Both programs slice the grid into its two coordinate planes and the centres into their two coordinate vectors, take
  the cosine and sine of the angles, form the squared scales plus a small positive constant, the softplus of the
  amplitudes and the logistic of the colours. The kernel program then folds the rotated, scaled quadratic form into
  three coefficient vectors A, B, C, and lays the amplitude-weighted colours beside the amplitudes themselves in a
  four-column matrix. Every array is read here as a term over the reference's stages of the same launch arguments.
-/
import proofs.«121615_j16518444220960_2_alg».proof.Proof.KernelIdealAround
import proofs.«121615_j16518444220960_2_alg».proof.Proof.Gen.ReferenceIdeal.Read
import Idealize.ShloMosaic.Lib.ValueIdx
import Idealize.ShloMosaic.Lib.Pipeline.Value
import Idealize.ShloMosaic.Lib.StableHlo.Run
import Idealize.ShloMosaic.PureOps.Ideal

set_option maxRecDepth 16384
set_option quotPrecheck false

noncomputable section

namespace Cert.Bridge

open Cert.KernelIdeal Cert.KernelIdeal.Gen Cert.KernelIdeal.Around
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-! The launch arguments, at the types the reference's stages take them. -/
local notation "A0" => (m ((c : Thread nD τ).loc main_arg0) : (⟨Cert.ReferenceIdeal.S512x512x2, .f32⟩ : BufTy).Contents (Elt Ideal))
local notation "A1" => (m ((c : Thread nD τ).loc main_arg1) : (⟨Cert.ReferenceIdeal.S256x2, .f32⟩ : BufTy).Contents (Elt Ideal))
local notation "A2" => (m ((c : Thread nD τ).loc main_arg2) : (⟨Cert.ReferenceIdeal.S256x2, .f32⟩ : BufTy).Contents (Elt Ideal))
local notation "A3" => (m ((c : Thread nD τ).loc main_arg3) : (⟨Cert.ReferenceIdeal.S256, .f32⟩ : BufTy).Contents (Elt Ideal))
local notation "A4" => (m ((c : Thread nD τ).loc main_arg4) : (⟨Cert.ReferenceIdeal.S256x3, .f32⟩ : BufTy).Contents (Elt Ideal))
local notation "A5" => (m ((c : Thread nD τ).loc main_arg5) : (⟨Cert.ReferenceIdeal.S256x1, .f32⟩ : BufTy).Contents (Elt Ideal))

/-! The reference's stages the kernel's arrays are made of. -/
local notation "CO" => (Cert.ReferenceIdeal.Read.val_main_v23 (F := Ideal) A3 : FVec Ideal S256 .f32)
local notation "SI" => (Cert.ReferenceIdeal.Read.val_main_v24 (F := Ideal) A3 : FVec Ideal S256 .f32)
local notation "D1" => (Cert.ReferenceIdeal.Read.val_main_v43 (F := Ideal) A2 : FVec Ideal S256 .f32)
local notation "D2" => (Cert.ReferenceIdeal.Read.val_main_v50 (F := Ideal) A2 : FVec Ideal S256 .f32)
local notation "AMP" => (Cert.ReferenceIdeal.Read.val_main_v59 (F := Ideal) A5 : FVec Ideal S256 .f32)
local notation "COL" => (Cert.ReferenceIdeal.Read.val_main_v68 (F := Ideal) A4 : FVec Ideal S256x3 .f32)
local notation "one" => Ideal.ofBits .f32 0x3F800000#32
local notation "two" => Ideal.ofBits .f32 0x40000000#32

/-! ## The coordinate planes and the centres -/

set_option maxHeartbeats 2000000 in
/-- The first coordinate plane of the grid. -/
theorem V_gx : (V m c main_v50 : S512x512.Idx → EReal) = Cert.ReferenceIdeal.Read.val_main_v6 (F := Ideal) A0 := by
  dsimp only [V, V0, prefixOps]
  simp only [hostOps0, hostOps0_1, hostOps0_2, List.flatten_cons, List.flatten_nil, List.append_nil, List.cons_append, List.nil_append]
  after_results_simp
  rfl

set_option maxHeartbeats 2000000 in
/-- The second coordinate plane of the grid. -/
theorem V_gy : (V m c main_v52 : S512x512.Idx → EReal) = Cert.ReferenceIdeal.Read.val_main_v15 (F := Ideal) A0 := by
  dsimp only [V, V0, prefixOps]
  simp only [hostOps0, hostOps0_1, hostOps0_2, List.flatten_cons, List.flatten_nil, List.append_nil, List.cons_append, List.nil_append]
  after_results_simp
  rfl

set_option maxHeartbeats 2000000 in
/-- The centres' first coordinates. -/
theorem V_mux : (V m c main_v46 : S256.Idx → EReal) = Cert.ReferenceIdeal.Read.val_main_v9 (F := Ideal) A1 := by
  dsimp only [V, V0, prefixOps]
  simp only [hostOps0, hostOps0_1, hostOps0_2, List.flatten_cons, List.flatten_nil, List.append_nil, List.cons_append, List.nil_append]
  after_results_simp
  rfl

set_option maxHeartbeats 2000000 in
/-- The centres' second coordinates. -/
theorem V_muy : (V m c main_v48 : S256.Idx → EReal) = Cert.ReferenceIdeal.Read.val_main_v18 (F := Ideal) A1 := by
  dsimp only [V, V0, prefixOps]
  simp only [hostOps0, hostOps0_1, hostOps0_2, List.flatten_cons, List.flatten_nil, List.append_nil, List.cons_append, List.nil_append]
  after_results_simp
  rfl

/-! ## The quadratic form's coefficients -/

set_option maxHeartbeats 4000000 in
/-- The coefficient of a², as an array: cos² over the first scale plus sin² over the second. -/
theorem V_A_fun : (V m c main_v21 : S256.Idx → EReal)
    = addf (F := Ideal) (mulf (mulf CO CO) (Host.divf (broadcastInDim S256 ![] bcast_S_S256 (constant S_ .f32 0x3F800000#32)) D1))
        (mulf (mulf SI SI) (Host.divf (broadcastInDim S256 ![] bcast_S_S256 (constant S_ .f32 0x3F800000#32)) D2)) := by
  dsimp only [V, V0, prefixOps]
  simp only [hostOps0, hostOps0_1, hostOps0_2, List.flatten_cons, List.flatten_nil, List.append_nil, List.cons_append, List.nil_append]
  after_results_simp
  rfl

/-- The coefficient of a² at a centre. -/
theorem V_A (i : S256.Idx) : (V m c main_v21 : S256.Idx → EReal) i
    = (CO i * CO i) * Ideal.div one (D1 i) + (SI i * SI i) * Ideal.div one (D2 i) :=
  congrFun (V_A_fun m c) i

set_option maxHeartbeats 4000000 in
/-- The coefficient of b², as an array: sin² over the first scale plus cos² over the second. -/
theorem V_B_fun : (V m c main_v26 : S256.Idx → EReal)
    = addf (F := Ideal) (mulf (mulf SI SI) (Host.divf (broadcastInDim S256 ![] bcast_S_S256 (constant S_ .f32 0x3F800000#32)) D1))
        (mulf (mulf CO CO) (Host.divf (broadcastInDim S256 ![] bcast_S_S256 (constant S_ .f32 0x3F800000#32)) D2)) := by
  dsimp only [V, V0, prefixOps]
  simp only [hostOps0, hostOps0_1, hostOps0_2, List.flatten_cons, List.flatten_nil, List.append_nil, List.cons_append, List.nil_append]
  after_results_simp
  rfl

/-- The coefficient of b² at a centre. -/
theorem V_B (i : S256.Idx) : (V m c main_v26 : S256.Idx → EReal) i
    = (SI i * SI i) * Ideal.div one (D1 i) + (CO i * CO i) * Ideal.div one (D2 i) :=
  congrFun (V_B_fun m c) i

set_option maxHeartbeats 4000000 in
/-- The coefficient of a·b, as an array: twice cos·sin times the difference of the inverse scales. -/
theorem V_C_fun : (V m c main_v31 : S256.Idx → EReal)
    = mulf (F := Ideal) (mulf (mulf (broadcastInDim S256 ![] bcast_S_S256 (constant S_ .f32 0x40000000#32)) CO) SI)
        (subf (Host.divf (broadcastInDim S256 ![] bcast_S_S256 (constant S_ .f32 0x3F800000#32)) D1)
          (Host.divf (broadcastInDim S256 ![] bcast_S_S256 (constant S_ .f32 0x3F800000#32)) D2)) := by
  dsimp only [V, V0, prefixOps]
  simp only [hostOps0, hostOps0_1, hostOps0_2, List.flatten_cons, List.flatten_nil, List.append_nil, List.cons_append, List.nil_append]
  after_results_simp
  rfl

/-- The coefficient of a·b at a centre. -/
theorem V_C (i : S256.Idx) : (V m c main_v31 : S256.Idx → EReal) i
    = ((two * CO i) * SI i) * (Ideal.div one (D1 i) - Ideal.div one (D2 i)) :=
  congrFun (V_C_fun m c) i

/-! ## The amplitude-weighted colour matrix -/

/-- A vector spread along the rows of a four-column matrix reads, at row k, its k-th entry. -/
theorem spread_rows_apply {α : Type} (x : S256.Idx → α) (k : Fin 256) (j : Fin 4) :
    broadcastInDim S256x4 ![0, 1] bcast_S256x1_S256x4_0_1 (broadcastInDim S256x1 ![0] bcast_S256_S256x1_0 x) (ix2 k j)
      = x (ix1 k) := by
  refine (broadcastInDim_apply _ bcast_S256x1_S256x4_0_1 _ (ix2 k j) (ix2 k (0 : Fin 1)) (fun a => ?_)).trans ?_
  · match a with
    | ⟨0, _⟩ => show k.val = if (256 : Nat) = 1 then 0 else k.val; rw [if_neg (by decide)]
    | ⟨1, _⟩ => show 0 = if (1 : Nat) = 1 then 0 else j.val; rw [if_pos rfl]
  · exact broadcastInDim_apply _ bcast_S256_S256x1_0 x (ix2 k (0 : Fin 1)) (ix1 k) (fun a => match a with
      | ⟨0, _⟩ => by show k.val = if (256 : Nat) = 1 then 0 else k.val; rw [if_neg (by decide)])

/-- Three columns laid beside one column read, at a column below three, the three-column piece. -/
theorem beside_left_apply {α : Type} (x : S256x3.Idx → α) (y : S256x1.Idx → α) (k : Fin 256) (j : Fin 4) (hj : j.val < 3) :
    concatenate S256x4 1 [⟨S256x3, x⟩, ⟨S256x1, y⟩] concatenates_S256x3_S256x1_S256x4_d1 (ix2 k j)
      = x (ix2 k ⟨j.val, hj⟩) :=
  concatenate_pair_apply_left (1 : Fin S256x4.rank) x y concatenates_S256x3_S256x1_S256x4_d1 (ix2 k j) rfl (ix2 k ⟨j.val, hj⟩)
    (fun b => match b with
      | ⟨0, _⟩ => rfl
      | ⟨1, _⟩ => rfl)

/-- Three columns laid beside one column read, at the fourth column, the one-column piece. -/
theorem beside_right_apply {α : Type} (x : S256x3.Idx → α) (y : S256x1.Idx → α) (k : Fin 256) :
    concatenate S256x4 1 [⟨S256x3, x⟩, ⟨S256x1, y⟩] concatenates_S256x3_S256x1_S256x4_d1 (ix2 k (3 : Fin 4))
      = y (ix2 k (0 : Fin 1)) :=
  concatenate_pair_apply_right (1 : Fin S256x4.rank) x y concatenates_S256x3_S256x1_S256x4_d1 (ix2 k (3 : Fin 4)) rfl rfl (ix2 k (0 : Fin 1))
    (fun b => match b with
      | ⟨0, _⟩ => fun _ => rfl
      | ⟨1, _⟩ => fun h => absurd rfl h)
    rfl

set_option maxHeartbeats 4000000 in
/-- The matrix, as an array: the amplitudes spread along the rows, times the colours beside a column of ones. -/
theorem V_cw_fun : (V m c main_v44 : S256x4.Idx → EReal)
    = mulf (F := Ideal) (broadcastInDim S256x4 ![0, 1] bcast_S256x1_S256x4_0_1 (broadcastInDim S256x1 ![0] bcast_S256_S256x1_0 AMP))
        (concatenate S256x4 1 [⟨S256x3, COL⟩, ⟨S256x1, broadcastInDim S256x1 ![] bcast_S_S256x1 (constant S_ .f32 0x3F800000#32)⟩]
          concatenates_S256x3_S256x1_S256x4_d1) := by
  dsimp only [V, V0, prefixOps]
  simp only [hostOps0, hostOps0_1, hostOps0_2, List.flatten_cons, List.flatten_nil, List.append_nil, List.cons_append, List.nil_append]
  after_results_simp
  rfl

/-- A colour column of the matrix at centre k: the amplitude times the colour. -/
theorem V_cw_col (k : Fin 256) (j : Fin 4) (hj : j.val < 3) :
    (V m c main_v44 : S256x4.Idx → EReal) (ix2 k j) = AMP (ix1 k) * COL (ix2 k ⟨j.val, hj⟩) :=
  (congrFun (V_cw_fun m c) (ix2 k j)).trans
    (congrArg₂ (fun x y : EReal => x * y) (spread_rows_apply AMP k j) (beside_left_apply COL _ k j hj))

/-- The fourth column of the matrix at centre k: the amplitude itself (times one). -/
theorem V_cw_one (k : Fin 256) :
    (V m c main_v44 : S256x4.Idx → EReal) (ix2 k (3 : Fin 4)) = AMP (ix1 k) * one :=
  (congrFun (V_cw_fun m c) (ix2 k (3 : Fin 4))).trans
    (congrArg₂ (fun x y : EReal => x * y) (spread_rows_apply AMP k (3 : Fin 4)) (beside_right_apply COL _ k))

end Cert.Bridge

end
-- ==== Proof.RefImage.lean ====
/-
  The image the reference program returns, read at a pixel and a channel, at the ideal values.

  The reference forms, for every (pixel, Gaussian) pair, the offset rotated by the Gaussian's angle, the quadratic form
  of the rotated offset divided by the squared scales, the weight exp(-½ · q) and its product with the amplitude; a
  channel is the contraction of those products with the colours over the Gaussians, divided by their plain sum plus ε,
  clipped to [0, 1]. Every stage is read one operation at a time; the stages both programs share keep their names.
-/
import proofs.«121615_j16518444220960_2_alg».proof.Proof.Gen.ReferenceIdeal.Read
import proofs.«121615_j16518444220960_2_alg».proof.Proof.Spec
import Idealize.ShloMosaic.Lib.ValueIdx

noncomputable section

open scoped BigOperators

namespace Cert.Bridge

open Idealize.ShloMosaic Idealize.ShloMosaic.ValueIdx Cert.ReferenceIdeal

variable (a0 : (⟨S512x512x2, .f32⟩ : BufTy).Contents (Elt Ideal)) (a1 a2 : (⟨S256x2, .f32⟩ : BufTy).Contents (Elt Ideal))
  (a3 : (⟨S256, .f32⟩ : BufTy).Contents (Elt Ideal)) (a4 : (⟨S256x3, .f32⟩ : BufTy).Contents (Elt Ideal))
  (a5 : (⟨S256x1, .f32⟩ : BufTy).Contents (Elt Ideal))

/-! ## Where the spread stages read their operands -/

/-- A pixel plane spread along the Gaussians reads, at (h, w, k), the plane at (h, w). -/
theorem plane_idx_7_11 (h w : Fin 512) (k : Fin 256) : Cert.ReferenceIdeal.Read.idx_main_v7 (Cert.ReferenceIdeal.Read.idx_main_v11 (ix3 h w k)) = ix2 h w :=
  funext fun a => Fin.ext (by match a with | ⟨0, _⟩ => rfl | ⟨1, _⟩ => rfl)
/-- A pixel plane spread along the Gaussians reads, at (h, w, k), the plane at (h, w). -/
theorem plane_idx_16_20 (h w : Fin 512) (k : Fin 256) : Cert.ReferenceIdeal.Read.idx_main_v16 (Cert.ReferenceIdeal.Read.idx_main_v20 (ix3 h w k)) = ix2 h w :=
  funext fun a => Fin.ext (by match a with | ⟨0, _⟩ => rfl | ⟨1, _⟩ => rfl)
/-- A per-Gaussian vector spread over the pixels reads, at (h, w, k), the vector at k. -/
theorem lane_idx_10_12 (h w : Fin 512) (k : Fin 256) : Cert.ReferenceIdeal.Read.idx_main_v10 (Cert.ReferenceIdeal.Read.idx_main_v12 (ix3 h w k)) = ix1 k :=
  funext fun a => Fin.ext (by match a with | ⟨0, _⟩ => rfl)
/-- A per-Gaussian vector spread over the pixels reads, at (h, w, k), the vector at k. -/
theorem lane_idx_19_21 (h w : Fin 512) (k : Fin 256) : Cert.ReferenceIdeal.Read.idx_main_v19 (Cert.ReferenceIdeal.Read.idx_main_v21 (ix3 h w k)) = ix1 k :=
  funext fun a => Fin.ext (by match a with | ⟨0, _⟩ => rfl)
/-- A per-Gaussian vector spread over the pixels reads, at (h, w, k), the vector at k. -/
theorem lane_idx_25_26 (h w : Fin 512) (k : Fin 256) : Cert.ReferenceIdeal.Read.idx_main_v25 (Cert.ReferenceIdeal.Read.idx_main_v26 (ix3 h w k)) = ix1 k :=
  funext fun a => Fin.ext (by match a with | ⟨0, _⟩ => rfl)
/-- A per-Gaussian vector spread over the pixels reads, at (h, w, k), the vector at k. -/
theorem lane_idx_28_29 (h w : Fin 512) (k : Fin 256) : Cert.ReferenceIdeal.Read.idx_main_v28 (Cert.ReferenceIdeal.Read.idx_main_v29 (ix3 h w k)) = ix1 k :=
  funext fun a => Fin.ext (by match a with | ⟨0, _⟩ => rfl)
/-- A per-Gaussian vector spread over the pixels reads, at (h, w, k), the vector at k. -/
theorem lane_idx_33_34 (h w : Fin 512) (k : Fin 256) : Cert.ReferenceIdeal.Read.idx_main_v33 (Cert.ReferenceIdeal.Read.idx_main_v34 (ix3 h w k)) = ix1 k :=
  funext fun a => Fin.ext (by match a with | ⟨0, _⟩ => rfl)
/-- A per-Gaussian vector spread over the pixels reads, at (h, w, k), the vector at k. -/
theorem lane_idx_36_37 (h w : Fin 512) (k : Fin 256) : Cert.ReferenceIdeal.Read.idx_main_v36 (Cert.ReferenceIdeal.Read.idx_main_v37 (ix3 h w k)) = ix1 k :=
  funext fun a => Fin.ext (by match a with | ⟨0, _⟩ => rfl)
/-- A per-Gaussian vector spread over the pixels reads, at (h, w, k), the vector at k. -/
theorem lane_idx_44_45 (h w : Fin 512) (k : Fin 256) : Cert.ReferenceIdeal.Read.idx_main_v44 (Cert.ReferenceIdeal.Read.idx_main_v45 (ix3 h w k)) = ix1 k :=
  funext fun a => Fin.ext (by match a with | ⟨0, _⟩ => rfl)
/-- A per-Gaussian vector spread over the pixels reads, at (h, w, k), the vector at k. -/
theorem lane_idx_51_52 (h w : Fin 512) (k : Fin 256) : Cert.ReferenceIdeal.Read.idx_main_v51 (Cert.ReferenceIdeal.Read.idx_main_v52 (ix3 h w k)) = ix1 k :=
  funext fun a => Fin.ext (by match a with | ⟨0, _⟩ => rfl)
/-- A per-Gaussian vector spread over the pixels reads, at (h, w, k), the vector at k. -/
theorem lane_idx_60_61 (h w : Fin 512) (k : Fin 256) : Cert.ReferenceIdeal.Read.idx_main_v60 (Cert.ReferenceIdeal.Read.idx_main_v61 (ix3 h w k)) = ix1 k :=
  funext fun a => Fin.ext (by match a with | ⟨0, _⟩ => rfl)

/-! ## The weight times the amplitude at a (pixel, Gaussian) pair -/

/-- The reference's weighted Gaussian at (h, w, k): the weight of the rotated quadratic form times the amplitude. -/
theorem ref_weighted (h w : Fin 512) (k : Fin 256) :
    Cert.ReferenceIdeal.Read.val_main_v62 (F := Ideal) a0 a1 a2 a3 a5 (ix3 h w k)
      = weight (quadRotated (Cert.ReferenceIdeal.Read.val_main_v6 (F := Ideal) a0 (ix2 h w)) (Cert.ReferenceIdeal.Read.val_main_v15 (F := Ideal) a0 (ix2 h w))
          (Cert.ReferenceIdeal.Read.val_main_v9 (F := Ideal) a1 (ix1 k)) (Cert.ReferenceIdeal.Read.val_main_v18 (F := Ideal) a1 (ix1 k))
          (Cert.ReferenceIdeal.Read.val_main_v23 (F := Ideal) a3 (ix1 k)) (Cert.ReferenceIdeal.Read.val_main_v24 (F := Ideal) a3 (ix1 k))
          (Cert.ReferenceIdeal.Read.val_main_v43 (F := Ideal) a2 (ix1 k)) (Cert.ReferenceIdeal.Read.val_main_v50 (F := Ideal) a2 (ix1 k)))
        * Cert.ReferenceIdeal.Read.val_main_v59 (F := Ideal) a5 (ix1 k) := by
  simp only [Cert.ReferenceIdeal.Read.val_main_v62_apply, Cert.ReferenceIdeal.Read.val_main_v57_apply, Cert.ReferenceIdeal.Read.val_main_v56_apply, Cert.ReferenceIdeal.Read.val_main_v55_apply, Cert.ReferenceIdeal.Read.val_main_v54_apply, Cert.ReferenceIdeal.Read.val_main_v46_apply, Cert.ReferenceIdeal.Read.val_main_v53_apply, Cert.ReferenceIdeal.Read.val_main_v40_apply, Cert.ReferenceIdeal.Read.val_main_v47_apply, Cert.ReferenceIdeal.Read.val_main_v31_apply, Cert.ReferenceIdeal.Read.val_main_v39_apply, Cert.ReferenceIdeal.Read.val_main_v27_apply, Cert.ReferenceIdeal.Read.val_main_v30_apply, Cert.ReferenceIdeal.Read.val_main_v35_apply, Cert.ReferenceIdeal.Read.val_main_v38_apply, Cert.ReferenceIdeal.Read.val_main_v32_apply, Cert.ReferenceIdeal.Read.val_main_v13_apply, Cert.ReferenceIdeal.Read.val_main_v22_apply, Cert.ReferenceIdeal.Read.val_main_v11_apply, Cert.ReferenceIdeal.Read.val_main_v7_apply, Cert.ReferenceIdeal.Read.val_main_v12_apply, Cert.ReferenceIdeal.Read.val_main_v10_apply, Cert.ReferenceIdeal.Read.val_main_v20_apply, Cert.ReferenceIdeal.Read.val_main_v16_apply, Cert.ReferenceIdeal.Read.val_main_v21_apply, Cert.ReferenceIdeal.Read.val_main_v19_apply, Cert.ReferenceIdeal.Read.val_main_v26_apply, Cert.ReferenceIdeal.Read.val_main_v25_apply, Cert.ReferenceIdeal.Read.val_main_v29_apply, Cert.ReferenceIdeal.Read.val_main_v28_apply, Cert.ReferenceIdeal.Read.val_main_v34_apply, Cert.ReferenceIdeal.Read.val_main_v33_apply, Cert.ReferenceIdeal.Read.val_main_v37_apply, Cert.ReferenceIdeal.Read.val_main_v36_apply, Cert.ReferenceIdeal.Read.val_main_v45_apply, Cert.ReferenceIdeal.Read.val_main_v44_apply, Cert.ReferenceIdeal.Read.val_main_v52_apply, Cert.ReferenceIdeal.Read.val_main_v51_apply, Cert.ReferenceIdeal.Read.val_main_v61_apply, Cert.ReferenceIdeal.Read.val_main_v60_apply, Cert.ReferenceIdeal.Read.val_main_cst_1_apply,
    plane_idx_7_11, plane_idx_16_20, lane_idx_10_12, lane_idx_19_21, lane_idx_25_26, lane_idx_28_29, lane_idx_33_34, lane_idx_36_37, lane_idx_44_45, lane_idx_51_52, lane_idx_60_61]
  rfl

/-! ## A channel of a pixel -/

theorem lidx_69 (h w : Fin 512) (j : Fin 3) (k : Fin 256) : Cert.ReferenceIdeal.Read.lidx_main_v69 (ix3 h w j) k = ix3 h w k :=
  funext fun a => Fin.ext (by match a with | ⟨0, _⟩ => rfl | ⟨1, _⟩ => rfl | ⟨2, _⟩ => rfl)
theorem ridx_69 (h w : Fin 512) (j : Fin 3) (k : Fin 256) : Cert.ReferenceIdeal.Read.ridx_main_v69 (ix3 h w j) k = ix2 k j :=
  funext fun a => Fin.ext (by match a with | ⟨0, _⟩ => rfl | ⟨1, _⟩ => rfl)
theorem sum_idx_70 (h w : Fin 512) (j : Fin 3) (k : Fin 256) :
    Cert.ReferenceIdeal.Read.idx_main_v70 (Cert.ReferenceIdeal.Read.idx_main_v71 (Cert.ReferenceIdeal.Read.idx_main_v74 (ix3 h w j))) k = ix3 h w k :=
  funext fun a => Fin.ext (by match a with | ⟨0, _⟩ => rfl | ⟨1, _⟩ => rfl | ⟨2, _⟩ => rfl)

/-- Channel j of pixel (h, w) in the reference's image: the weighted Gaussians contracted with colour column j, over their
    sum from zero plus ε, clipped. -/
theorem ref_image (h w : Fin 512) (j : Fin 3) :
    Cert.ReferenceIdeal.Read.val_main_v76 (F := Ideal) a0 a1 a2 a3 a4 a5 (ix3 h w j)
      = clip01 (Ideal.div
          (∑ k : Fin 256, Cert.ReferenceIdeal.Read.val_main_v62 (F := Ideal) a0 a1 a2 a3 a5 (ix3 h w k) * Cert.ReferenceIdeal.Read.val_main_v68 (F := Ideal) a4 (ix2 k j))
          ((zeroW + ∑ k : Fin 256, Cert.ReferenceIdeal.Read.val_main_v62 (F := Ideal) a0 a1 a2 a3 a5 (ix3 h w k)) + epsW)) := by
  simp only [Cert.ReferenceIdeal.Read.val_main_v76_apply, Cert.ReferenceIdeal.Read.val_main_call1_v4_apply, Cert.ReferenceIdeal.Read.val_main_call1_v3_apply,
    Cert.ReferenceIdeal.Read.val_main_cst_7_apply, Cert.ReferenceIdeal.Read.val_main_call1_v2_apply, Cert.ReferenceIdeal.Read.val_main_call1_v1_apply, Cert.ReferenceIdeal.Read.val_main_call1_v0_apply,
    Cert.ReferenceIdeal.Read.val_main_cst_6_apply, Cert.ReferenceIdeal.Read.val_main_v75_apply, Cert.ReferenceIdeal.Read.val_main_v69_apply, Cert.ReferenceIdeal.Read.val_main_v74_apply,
    Cert.ReferenceIdeal.Read.val_main_v73_apply, Cert.ReferenceIdeal.Read.val_main_v71_apply, Cert.ReferenceIdeal.Read.val_main_v70_apply, Cert.ReferenceIdeal.Read.val_main_cst_4_apply,
    Cert.ReferenceIdeal.Read.val_main_v72_apply, Cert.ReferenceIdeal.Read.val_main_cst_5_apply, lidx_69, ridx_69, sum_idx_70]
  rfl

end Cert.Bridge

end
-- ==== Proof.QuadForm.lean ====
/-
  The scalar algebra of a rotated-then-scaled quadratic form, over the extended reals.

  For a plane vector (a, b), a rotation by an angle with cosine c and sine s, and two nonzero scales d1, d2,
  the form  (a c + b s)² / d1 + (-a s + b c)² / d2  expands into  A a² + B b² + C a b  with
  A = c²/d1 + s²/d2,  B = s²/d1 + c²/d2,  C = 2 c s (1/d1 - 1/d2).  On finite operands every operation of the
  extended reals is the real one, so the identity is the real identity, lifted.
-/
import Idealize.ShloMosaic.PureOps.Ideal

noncomputable section

namespace Cert.Bridge

open Idealize.ShloMosaic

/-! ### The words the programs spell -/

/-- The real `2`, seen as an extended real, is the extended real `2`. -/
theorem coe_two : ((2 : ℝ) : EReal) = 2 := rfl

/-- The single-precision pattern of `+0.0` denotes `0`. -/
theorem ofBits_zero : Ideal.ofBits .f32 0x00000000#32 = 0 := by
  simp [Ideal.ofBits, Ideal.ieee]

/-- The single-precision pattern of `1.0` (exponent 127, fraction 0) denotes `1`. -/
theorem ofBits_one : Ideal.ofBits .f32 0x3F800000#32 = 1 := by
  simp [Ideal.ofBits, Ideal.ieee, -EReal.coe_mul]; norm_num

/-- The single-precision pattern of `2.0` (exponent 128, fraction 0) denotes `2`. -/
theorem ofBits_two : Ideal.ofBits .f32 0x40000000#32 = 2 := by
  simp [Ideal.ofBits, Ideal.ieee, -EReal.coe_mul]; norm_num; exact coe_two

/-- The pattern `0x358637BD` (exponent 107, fraction 407485: about one millionth) denotes a positive real. -/
theorem ofBits_eps : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-! ### The operations on finite operands -/

/-- The exponential of a real is the real exponential. -/
theorem exp_real (r : ℝ) : Ideal.exp (r : EReal) = ((Real.exp r : ℝ) : EReal) := rfl

/-- The exponential of a real is a positive real. -/
theorem exp_real_pos (r : ℝ) : ∃ e : ℝ, 0 < e ∧ Ideal.exp (r : EReal) = (e : EReal) :=
  ⟨Real.exp r, Real.exp_pos r, rfl⟩

/-- The cosine of a real is the real cosine. -/
theorem cos_real (r : ℝ) : Ideal.cos (r : EReal) = ((Real.cos r : ℝ) : EReal) := rfl

/-- The sine of a real is the real sine. -/
theorem sin_real (r : ℝ) : Ideal.sin (r : EReal) = ((Real.sin r : ℝ) : EReal) := rfl

/-- The quotient of two reals by a nonzero divisor is the real quotient. -/
theorem div_real (x y : ℝ) (hy : y ≠ 0) : Ideal.div (x : EReal) (y : EReal) = ((x / y : ℝ) : EReal) := by
  rw [Ideal.div_coe hy, ← EReal.coe_mul]
  congr 1
  ring

/-! ### The law -/

/-- The real identity: `(c²X + s²Y) a² + (s²X + c²Y) b² + 2cs(X - Y) ab = (ac + bs)²/d1 + (-as + bc)²/d2`
    at `X = 1/d1`, `Y = 1/d2`. -/
theorem quad_law_real (a b c s d1 d2 : ℝ) (h1 : d1 ≠ 0) (h2 : d2 ≠ 0) :
    ((((c * c) * (1 / d1) + (s * s) * (1 / d2)) * a) * a + (((s * s) * (1 / d1) + (c * c) * (1 / d2)) * b) * b)
        + ((((2 * c) * s) * (1 / d1 - 1 / d2)) * a) * b
      = ((a * c + b * s) * (a * c + b * s)) / d1 + (((-a) * s + b * c) * ((-a) * s + b * c)) / d2 := by
  field_simp
  ring

/-- THE LAW over the extended reals, on finite operands: the quadratic form `A a² + B b² + C a b` with
    `A = c²X + s²Y`, `B = s²X + c²Y`, `C = 2cs(X - Y)`, `X = 1/d1`, `Y = 1/d2` is the rotated vector's
    squared coordinates, each divided by its scale. -/
theorem quad_law (a b c s d1 d2 : ℝ) (h1 : d1 ≠ 0) (h2 : d2 ≠ 0) :
    (((((c : EReal) * (c : EReal)) * Ideal.div 1 (d1 : EReal) + ((s : EReal) * (s : EReal)) * Ideal.div 1 (d2 : EReal)) * (a : EReal)) * (a : EReal)
        + ((((s : EReal) * (s : EReal)) * Ideal.div 1 (d1 : EReal) + ((c : EReal) * (c : EReal)) * Ideal.div 1 (d2 : EReal)) * (b : EReal)) * (b : EReal))
        + (((((2 : EReal) * (c : EReal)) * (s : EReal)) * (Ideal.div 1 (d1 : EReal) - Ideal.div 1 (d2 : EReal))) * (a : EReal)) * (b : EReal)
      = Ideal.div (((a : EReal) * (c : EReal) + (b : EReal) * (s : EReal)) * ((a : EReal) * (c : EReal) + (b : EReal) * (s : EReal))) (d1 : EReal)
        + Ideal.div (((-(a : EReal)) * (s : EReal) + (b : EReal) * (c : EReal)) * ((-(a : EReal)) * (s : EReal) + (b : EReal) * (c : EReal))) (d2 : EReal) := by
  have hX : Ideal.div (1 : EReal) (d1 : EReal) = ((1 / d1 : ℝ) : EReal) := by
    rw [← EReal.coe_one, div_real _ _ h1]
  have hY : Ideal.div (1 : EReal) (d2 : EReal) = ((1 / d2 : ℝ) : EReal) := by
    rw [← EReal.coe_one, div_real _ _ h2]
  rw [hX, hY, ← coe_two]
  simp only [← EReal.coe_mul, ← EReal.coe_add, ← EReal.coe_sub, ← EReal.coe_neg, div_real _ _ h1, div_real _ _ h2]
  exact congrArg _ (quad_law_real a b c s d1 d2 h1 h2)

end Cert.Bridge

end
-- ==== Proof.RefStages.lean ====
/-
  The reference's shared stages, element by element, and the bridge between the two ways of writing the Gaussians'
  quadratic form.

  The grid's two coordinate planes and the centres' two coordinate vectors are slices of the arguments; the cosine and
  sine of the angles and the squared scales plus ε are pointwise. Under the finiteness of the arguments each of them
  is a real number at every index, and the squared scales plus ε are nonzero; on such operands the quadratic form with
  the rotation folded into its coefficients is the quadratic form of the rotated offset.
-/
import proofs.«121615_j16518444220960_2_alg».proof.Proof.Gen.ReferenceIdeal.Read
import proofs.«121615_j16518444220960_2_alg».proof.Proof.Spec
import proofs.«121615_j16518444220960_2_alg».proof.Proof.QuadForm
import Idealize.ShloMosaic.Lib.ValueIdx
import Idealize.ShloMosaic.PureOps.Ideal

noncomputable section

namespace Cert.Bridge

open Idealize.ShloMosaic Idealize.ShloMosaic.ValueIdx
open Cert.ReferenceIdeal.Read

variable (a0 : (⟨Cert.ReferenceIdeal.S512x512x2, .f32⟩ : BufTy).Contents (Elt Ideal))
  (a1 a2 : (⟨Cert.ReferenceIdeal.S256x2, .f32⟩ : BufTy).Contents (Elt Ideal))
  (a3 : (⟨Cert.ReferenceIdeal.S256, .f32⟩ : BufTy).Contents (Elt Ideal))

/-! ## The composed index maps, by coordinates -/

/-- Pixel (h, w) of the first coordinate plane is entry (h, w, 0) of the grid. -/
theorem idx_gx (h w : Fin 512) : idx_main_v5 (idx_main_v6 (ix2 h w)) = ix3 h w (0 : Fin 2) :=
  funext fun a => Fin.ext (by
    have hh := h.isLt; have hw := w.isLt
    match a with
    | ⟨0, _⟩ => show (h.val * 512 + w.val) / 512 = h.val; omega
    | ⟨1, _⟩ => show (h.val * 512 + w.val) / 1 % 512 = w.val; omega
    | ⟨2, _⟩ => rfl)

/-- Pixel (h, w) of the second coordinate plane is entry (h, w, 1) of the grid. -/
theorem idx_gy (h w : Fin 512) : idx_main_v14 (idx_main_v15 (ix2 h w)) = ix3 h w (1 : Fin 2) :=
  funext fun a => Fin.ext (by
    have hh := h.isLt; have hw := w.isLt
    match a with
    | ⟨0, _⟩ => show (h.val * 512 + w.val) / 512 = h.val; omega
    | ⟨1, _⟩ => show (h.val * 512 + w.val) / 1 % 512 = w.val; omega
    | ⟨2, _⟩ => rfl)

/-- Entry k of a first-column vector is entry (k, 0) of its two-column matrix. -/
theorem idx_col0_v8 (k : Fin 256) : idx_main_v8 (idx_main_v9 (ix1 k)) = ix2 k (0 : Fin 2) :=
  funext fun a => Fin.ext (by
    match a with
    | ⟨0, _⟩ => show k.val / 1 = k.val; omega
    | ⟨1, _⟩ => rfl)

/-- Entry k of a second-column vector is entry (k, 1) of its two-column matrix. -/
theorem idx_col1_v17 (k : Fin 256) : idx_main_v17 (idx_main_v18 (ix1 k)) = ix2 k (1 : Fin 2) :=
  funext fun a => Fin.ext (by
    match a with
    | ⟨0, _⟩ => show k.val / 1 = k.val; omega
    | ⟨1, _⟩ => rfl)

/-- Entry k of the first log-scale vector is entry (k, 0) of the log-scale matrix. -/
theorem idx_col0_v1 (k : Fin 256) : idx_main_v1 (idx_main_v2 (ix1 k)) = ix2 k (0 : Fin 2) :=
  funext fun a => Fin.ext (by
    match a with
    | ⟨0, _⟩ => show k.val / 1 = k.val; omega
    | ⟨1, _⟩ => rfl)

/-- Entry k of the second log-scale vector is entry (k, 1) of the log-scale matrix. -/
theorem idx_col1_v3 (k : Fin 256) : idx_main_v3 (idx_main_v4 (ix1 k)) = ix2 k (1 : Fin 2) :=
  funext fun a => Fin.ext (by
    match a with
    | ⟨0, _⟩ => show k.val / 1 = k.val; omega
    | ⟨1, _⟩ => rfl)

/-! ## The shared stages at an index -/

/-- The first coordinate plane at pixel (h, w). -/
theorem GX_at (h w : Fin 512) : val_main_v6 (F := Ideal) a0 (ix2 h w) = a0 (ix3 h w (0 : Fin 2)) := by
  rw [val_main_v6_apply, val_main_v5_apply, idx_gx]

/-- The second coordinate plane at pixel (h, w). -/
theorem GY_at (h w : Fin 512) : val_main_v15 (F := Ideal) a0 (ix2 h w) = a0 (ix3 h w (1 : Fin 2)) := by
  rw [val_main_v15_apply, val_main_v14_apply, idx_gy]

/-- Centre k's first coordinate. -/
theorem MX_at (k : Fin 256) : val_main_v9 (F := Ideal) a1 (ix1 k) = a1 (ix2 k (0 : Fin 2)) := by
  rw [val_main_v9_apply, val_main_v8_apply, idx_col0_v8]

/-- Centre k's second coordinate. -/
theorem MY_at (k : Fin 256) : val_main_v18 (F := Ideal) a1 (ix1 k) = a1 (ix2 k (1 : Fin 2)) := by
  rw [val_main_v18_apply, val_main_v17_apply, idx_col1_v17]

/-- The cosine of angle k. -/
theorem CO_at (k : Fin 256) : val_main_v23 (F := Ideal) a3 (ix1 k) = Ideal.cos (a3 (ix1 k)) := rfl

/-- The sine of angle k. -/
theorem SI_at (k : Fin 256) : val_main_v24 (F := Ideal) a3 (ix1 k) = Ideal.sin (a3 (ix1 k)) := rfl

/-- The first squared scale plus ε at k: the exponential of the log-scale, squared, plus ε. -/
theorem D1_at (k : Fin 256) : val_main_v43 (F := Ideal) a2 (ix1 k)
    = Ideal.exp (a2 (ix2 k (0 : Fin 2))) * Ideal.exp (a2 (ix2 k (0 : Fin 2))) + epsW := by
  rw [val_main_v43_apply, val_main_v41_apply, val_main_v2_apply, val_main_v1_apply, val_main_v0_apply, val_main_v42_apply,
    val_main_cst_apply, idx_col0_v1]
  rfl

/-- The second squared scale plus ε at k. -/
theorem D2_at (k : Fin 256) : val_main_v50 (F := Ideal) a2 (ix1 k)
    = Ideal.exp (a2 (ix2 k (1 : Fin 2))) * Ideal.exp (a2 (ix2 k (1 : Fin 2))) + epsW := by
  rw [val_main_v50_apply, val_main_v48_apply, val_main_v4_apply, val_main_v3_apply, val_main_v0_apply, val_main_v49_apply,
    val_main_cst_0_apply, idx_col1_v3]
  rfl

/-! ## The stages are real under finiteness -/

/-- A finite grid has real first coordinates. -/
theorem GX_real (h0 : ∀ i, ∃ r : ℝ, a0 i = (r : EReal)) (h w : Fin 512) :
    ∃ r : ℝ, val_main_v6 (F := Ideal) a0 (ix2 h w) = (r : EReal) := by
  obtain ⟨r, hr⟩ := h0 (ix3 h w (0 : Fin 2))
  exact ⟨r, (GX_at a0 h w).trans hr⟩

/-- A finite grid has real second coordinates. -/
theorem GY_real (h0 : ∀ i, ∃ r : ℝ, a0 i = (r : EReal)) (h w : Fin 512) :
    ∃ r : ℝ, val_main_v15 (F := Ideal) a0 (ix2 h w) = (r : EReal) := by
  obtain ⟨r, hr⟩ := h0 (ix3 h w (1 : Fin 2))
  exact ⟨r, (GY_at a0 h w).trans hr⟩

/-- Finite centres have real first coordinates. -/
theorem MX_real (h1 : ∀ i, ∃ r : ℝ, a1 i = (r : EReal)) (k : Fin 256) :
    ∃ r : ℝ, val_main_v9 (F := Ideal) a1 (ix1 k) = (r : EReal) := by
  obtain ⟨r, hr⟩ := h1 (ix2 k (0 : Fin 2))
  exact ⟨r, (MX_at a1 k).trans hr⟩

/-- Finite centres have real second coordinates. -/
theorem MY_real (h1 : ∀ i, ∃ r : ℝ, a1 i = (r : EReal)) (k : Fin 256) :
    ∃ r : ℝ, val_main_v18 (F := Ideal) a1 (ix1 k) = (r : EReal) := by
  obtain ⟨r, hr⟩ := h1 (ix2 k (1 : Fin 2))
  exact ⟨r, (MY_at a1 k).trans hr⟩

/-- The cosine of a finite angle is real. -/
theorem CO_real (h3 : ∀ i, ∃ r : ℝ, a3 i = (r : EReal)) (k : Fin 256) :
    ∃ r : ℝ, val_main_v23 (F := Ideal) a3 (ix1 k) = (r : EReal) := by
  obtain ⟨r, hr⟩ := h3 (ix1 k)
  exact ⟨Real.cos r, by rw [CO_at, hr, cos_real]⟩

/-- The sine of a finite angle is real. -/
theorem SI_real (h3 : ∀ i, ∃ r : ℝ, a3 i = (r : EReal)) (k : Fin 256) :
    ∃ r : ℝ, val_main_v24 (F := Ideal) a3 (ix1 k) = (r : EReal) := by
  obtain ⟨r, hr⟩ := h3 (ix1 k)
  exact ⟨Real.sin r, by rw [SI_at, hr, sin_real]⟩

/-- The square of a real exponential plus a positive real is a nonzero real. -/
theorem sq_exp_add_eps_real (x : EReal) (hx : ∃ r : ℝ, x = (r : EReal)) :
    ∃ d : ℝ, d ≠ 0 ∧ Ideal.exp x * Ideal.exp x + epsW = (d : EReal) := by
  obtain ⟨r, rfl⟩ := hx
  obtain ⟨e, he, hE⟩ := ofBits_eps
  refine ⟨Real.exp r * Real.exp r + e, ne_of_gt (add_pos (mul_pos (Real.exp_pos r) (Real.exp_pos r)) he), ?_⟩
  show Ideal.exp (r : EReal) * Ideal.exp (r : EReal) + Ideal.ofBits .f32 0x358637BD#32 = _
  rw [hE, exp_real, ← EReal.coe_mul, ← EReal.coe_add]

/-- The first squared scale plus ε of a finite log-scale is a nonzero real. -/
theorem D1_real (h2 : ∀ i, ∃ r : ℝ, a2 i = (r : EReal)) (k : Fin 256) :
    ∃ d : ℝ, d ≠ 0 ∧ val_main_v43 (F := Ideal) a2 (ix1 k) = (d : EReal) := by
  rw [D1_at]
  exact sq_exp_add_eps_real _ (h2 (ix2 k (0 : Fin 2)))

/-- The second squared scale plus ε of a finite log-scale is a nonzero real. -/
theorem D2_real (h2 : ∀ i, ∃ r : ℝ, a2 i = (r : EReal)) (k : Fin 256) :
    ∃ d : ℝ, d ≠ 0 ∧ val_main_v50 (F := Ideal) a2 (ix1 k) = (d : EReal) := by
  rw [D2_at]
  exact sq_exp_add_eps_real _ (h2 (ix2 k (1 : Fin 2)))

/-! ## The two quadratic forms agree -/

/-- On real operands with nonzero scales, the quadratic form with the rotation folded into A, B, C is the quadratic
    form of the rotated offset. -/
theorem quad_bridge (gx gy mx my co si d1 d2 : ℝ) (h1 : d1 ≠ 0) (h2 : d2 ≠ 0) :
    quadFolded (gx : EReal) (gy : EReal) (mx : EReal) (my : EReal)
        (((co : EReal) * (co : EReal)) * Ideal.div oneW (d1 : EReal) + ((si : EReal) * (si : EReal)) * Ideal.div oneW (d2 : EReal))
        (((si : EReal) * (si : EReal)) * Ideal.div oneW (d1 : EReal) + ((co : EReal) * (co : EReal)) * Ideal.div oneW (d2 : EReal))
        (((twoW * (co : EReal)) * (si : EReal)) * (Ideal.div oneW (d1 : EReal) - Ideal.div oneW (d2 : EReal)))
      = quadRotated (gx : EReal) (gy : EReal) (mx : EReal) (my : EReal) (co : EReal) (si : EReal) (d1 : EReal) (d2 : EReal) := by
  have ex : (gx : EReal) - (mx : EReal) = ((gx - mx : ℝ) : EReal) := (EReal.coe_sub gx mx).symm
  have ey : (gy : EReal) - (my : EReal) = ((gy - my : ℝ) : EReal) := (EReal.coe_sub gy my).symm
  have e1 : oneW = 1 := ofBits_one
  have e2 : twoW = 2 := ofBits_two
  unfold quadFolded quadRotated
  rw [ex, ey, e1, e2]
  exact quad_law (gx - mx) (gy - my) co si d1 d2 h1 h2

/-- The same for extended reals known to be real, the scales known to be nonzero reals. -/
theorem quad_bridge' (x y p q c s e f : EReal)
    (hx : ∃ r : ℝ, x = (r : EReal)) (hy : ∃ r : ℝ, y = (r : EReal)) (hp : ∃ r : ℝ, p = (r : EReal))
    (hq : ∃ r : ℝ, q = (r : EReal)) (hc : ∃ r : ℝ, c = (r : EReal)) (hs : ∃ r : ℝ, s = (r : EReal))
    (he : ∃ d : ℝ, d ≠ 0 ∧ e = (d : EReal)) (hf : ∃ d : ℝ, d ≠ 0 ∧ f = (d : EReal)) :
    quadFolded x y p q ((c * c) * Ideal.div oneW e + (s * s) * Ideal.div oneW f)
        ((s * s) * Ideal.div oneW e + (c * c) * Ideal.div oneW f)
        (((twoW * c) * s) * (Ideal.div oneW e - Ideal.div oneW f))
      = quadRotated x y p q c s e f := by
  obtain ⟨gx, rfl⟩ := hx
  obtain ⟨gy, rfl⟩ := hy
  obtain ⟨mx, rfl⟩ := hp
  obtain ⟨my, rfl⟩ := hq
  obtain ⟨co, rfl⟩ := hc
  obtain ⟨si, rfl⟩ := hs
  obtain ⟨d1, h1, rfl⟩ := he
  obtain ⟨d2, h2, rfl⟩ := hf
  exact quad_bridge gx gy mx my co si d1 d2 h1 h2

end Cert.Bridge

end
-- ==== Proof.PixelEq.lean ====
/-
  The two programs' images agree pixel by pixel and channel by channel, at the ideal values, on finite inputs.

  For one (pixel, Gaussian) pair the kernel's exponent A·dx² + B·dy² + C·dx·dy, with A, B, C the rotation folded into the
  inverse squared scales, is the reference's rotated-then-scaled quadratic form: a real identity, which holds because
  the offsets, the cosine and sine and the squared scales plus ε are real and the scales are nonzero. The weights are then
  equal, the kernel's weight · (amplitude · colour) is the reference's (weight · amplitude) · colour by associativity,
  the fourth column amplitude · 1 gives the normalizer, and a sum started from zero is the sum.
-/
import proofs.«121615_j16518444220960_2_alg».proof.Proof.KernelImage
import proofs.«121615_j16518444220960_2_alg».proof.Proof.KernelHostValues
import proofs.«121615_j16518444220960_2_alg».proof.Proof.RefImage
import proofs.«121615_j16518444220960_2_alg».proof.Proof.RefStages

set_option maxRecDepth 16384
set_option quotPrecheck false

noncomputable section

open scoped BigOperators

namespace Cert.Bridge

open Cert.KernelIdeal Cert.KernelIdeal.Gen Cert.KernelIdeal.Around
open Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

local notation "A0" => (m ((c : Thread nD τ).loc main_arg0) : (⟨Cert.ReferenceIdeal.S512x512x2, .f32⟩ : BufTy).Contents (Elt Ideal))
local notation "A1" => (m ((c : Thread nD τ).loc main_arg1) : (⟨Cert.ReferenceIdeal.S256x2, .f32⟩ : BufTy).Contents (Elt Ideal))
local notation "A2" => (m ((c : Thread nD τ).loc main_arg2) : (⟨Cert.ReferenceIdeal.S256x2, .f32⟩ : BufTy).Contents (Elt Ideal))
local notation "A3" => (m ((c : Thread nD τ).loc main_arg3) : (⟨Cert.ReferenceIdeal.S256, .f32⟩ : BufTy).Contents (Elt Ideal))
local notation "A4" => (m ((c : Thread nD τ).loc main_arg4) : (⟨Cert.ReferenceIdeal.S256x3, .f32⟩ : BufTy).Contents (Elt Ideal))
local notation "A5" => (m ((c : Thread nD τ).loc main_arg5) : (⟨Cert.ReferenceIdeal.S256x1, .f32⟩ : BufTy).Contents (Elt Ideal))

/-- One Gaussian's term of a colour channel: weight · (amplitude · colour) in the kernel, (weight · amplitude) · colour in
    the reference. -/
theorem term_col (h0 : ∀ i, ∃ r : ℝ, A0 i = (r : EReal)) (h1 : ∀ i, ∃ r : ℝ, A1 i = (r : EReal))
    (h2 : ∀ i, ∃ r : ℝ, A2 i = (r : EReal)) (h3 : ∀ i, ∃ r : ℝ, A3 i = (r : EReal))
    (h w : Fin 512) (k : Fin 256) (j : Fin 4) (hj : j.val < 3) :
    weight (quadFolded (Cert.ReferenceIdeal.Read.val_main_v6 (F := Ideal) A0 (ix2 h w)) (Cert.ReferenceIdeal.Read.val_main_v15 (F := Ideal) A0 (ix2 h w))
        (Cert.ReferenceIdeal.Read.val_main_v9 (F := Ideal) A1 (ix1 k)) (Cert.ReferenceIdeal.Read.val_main_v18 (F := Ideal) A1 (ix1 k))
        (V m c main_v21 (ix1 k)) (V m c main_v26 (ix1 k)) (V m c main_v31 (ix1 k))) * V m c main_v44 (ix2 k j)
      = Cert.ReferenceIdeal.Read.val_main_v62 (F := Ideal) A0 A1 A2 A3 A5 (ix3 h w k) * Cert.ReferenceIdeal.Read.val_main_v68 (F := Ideal) A4 (ix2 k ⟨j.val, hj⟩) := by
  rw [V_A, V_B, V_C, V_cw_col m c k j hj, ref_weighted,
    quad_bridge' _ _ _ _ _ _ _ _ (GX_real A0 h0 h w) (GY_real A0 h0 h w) (MX_real A1 h1 k) (MY_real A1 h1 k) (CO_real A3 h3 k) (SI_real A3 h3 k) (D1_real A2 h2 k) (D2_real A2 h2 k), mul_assoc]

/-- One Gaussian's term of the normalizer: weight · (amplitude · 1) in the kernel, weight · amplitude in the reference. -/
theorem term_den (h0 : ∀ i, ∃ r : ℝ, A0 i = (r : EReal)) (h1 : ∀ i, ∃ r : ℝ, A1 i = (r : EReal))
    (h2 : ∀ i, ∃ r : ℝ, A2 i = (r : EReal)) (h3 : ∀ i, ∃ r : ℝ, A3 i = (r : EReal))
    (h w : Fin 512) (k : Fin 256) :
    weight (quadFolded (Cert.ReferenceIdeal.Read.val_main_v6 (F := Ideal) A0 (ix2 h w)) (Cert.ReferenceIdeal.Read.val_main_v15 (F := Ideal) A0 (ix2 h w))
        (Cert.ReferenceIdeal.Read.val_main_v9 (F := Ideal) A1 (ix1 k)) (Cert.ReferenceIdeal.Read.val_main_v18 (F := Ideal) A1 (ix1 k))
        (V m c main_v21 (ix1 k)) (V m c main_v26 (ix1 k)) (V m c main_v31 (ix1 k))) * V m c main_v44 (ix2 k (3 : Fin 4))
      = Cert.ReferenceIdeal.Read.val_main_v62 (F := Ideal) A0 A1 A2 A3 A5 (ix3 h w k) := by
  rw [V_A, V_B, V_C, V_cw_one m c k, ref_weighted,
    quad_bridge' _ _ _ _ _ _ _ _ (GX_real A0 h0 h w) (GY_real A0 h0 h w) (MX_real A1 h1 k) (MY_real A1 h1 k) (CO_real A3 h3 k) (SI_real A3 h3 k) (D1_real A2 h2 k) (D2_real A2 h2 k), ofBits_one, mul_one]

/-- Channel j of pixel (h, w): the kernel's plane is the reference's image there. -/
theorem pixel_eq (h0 : ∀ i, ∃ r : ℝ, A0 i = (r : EReal)) (h1 : ∀ i, ∃ r : ℝ, A1 i = (r : EReal))
    (h2 : ∀ i, ∃ r : ℝ, A2 i = (r : EReal)) (h3 : ∀ i, ∃ r : ℝ, A3 i = (r : EReal))
    (h w : Fin 512) (j : Fin 4) (hj : j.val < 3) :
    planeOf m c j (ix2 h w) = Cert.ReferenceIdeal.Read.val_main_v76 (F := Ideal) A0 A1 A2 A3 A4 A5 (ix3 h w ⟨j.val, hj⟩) := by
  rw [ref_image]
  unfold planeOf pixel chan
  rw [V_gx m c, V_gy m c, V_mux m c, V_muy m c]
  have hz : zeroW = 0 := ofBits_zero
  refine congrArg clip01 (congr (congrArg Ideal.div ?_) (congrArg (· + epsW) ?_))
  · exact Finset.sum_congr rfl fun k _ => term_col m c h0 h1 h2 h3 h w k j hj
  · rw [hz, zero_add]
    exact Finset.sum_congr rfl fun k _ => term_den m c h0 h1 h2 h3 h w k

end Cert.Bridge

end
-- ==== Proof.FiniteInputs.lean ====
/-
  The precondition "every input entry is finite", read back as a fact about extended reals.

  The predicate is the conjunction, over the six input arrays, of "every entry x has |x| < +∞". At the extended
  reals |x| = max x (-x) and the comparison is the order's, so |x| < +∞ excludes exactly x = +∞ and x = -∞:
  every entry is (the image of) a real number.
-/
import proofs.«121615_j16518444220960_2_alg».proof.Pre_finite_inputs
import Idealize.ShloMosaic.PureOps.Ideal
import Idealize.ShloMosaic.Lib.ReduceAll
import Idealize.ShloMosaic.Lib.ValueIdx

noncomputable section

namespace Cert.Bridge

open Idealize.ShloMosaic Cert.Pre_finite_inputs

/-- The shape of a scalar has exactly one index. -/
instance subsingleton_scalar_idx : Subsingleton S_.Idx := ⟨fun a b => funext fun d => d.elim0⟩

/-- The single-precision pattern with exponent all ones and fraction zero denotes `+∞`. -/
theorem ofBits_inf : Ideal.ofBits .f32 0x7F800000#32 = ⊤ := by
  simp [Ideal.ofBits, Ideal.ieee]

/-- A truth value, as a one-bit word, is `1` exactly when it is true. -/
theorem ofBool_eq_one (b : Bool) : BitVec.ofBool b = 1#1 ↔ b = true := by cases b <;> decide

/-- An extended real with `max x (-x) < +∞` is neither infinity: it is a real. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the array `|a| < +∞` (the bound a scalar spread over the array's shape) being true says the
    entry of `a` is a real. -/
theorem real_of_lt_inf {s : Shape} (hb : S_.BroadcastsInDim s (![] : Fin 0 → Fin s.rank)) (a : FVec Ideal s .f32)
    (i : s.Idx)
    (h : cmpf .olt (Host.absf a) (broadcastInDim s ![] hb (constant S_ .f32 0x7F800000#32)) i = 1#1) :
    ∃ r : ℝ, a i = (r : EReal) := by
  have h' : BitVec.ofBool (decide (max (a i) (-(a i)) < Ideal.ofBits .f32 0x7F800000#32)) = 1#1 := h
  rw [ofBool_eq_one, decide_eq_true_eq, ofBits_inf] at h'
  exact real_of_abs_lt_top (a i) h'

/-- THE PRECONDITION DECODED: when the finiteness predicate holds of the six input arrays, every entry of each
    of them is a real number. -/
theorem finite_of_pre [Cert.Pre_finite_inputs.Facts]
    (a0 : FVec Ideal S512x512x2 .f32) (a1 : FVec Ideal S256x2 .f32) (a2 : FVec Ideal S256x2 .f32)
    (a3 : FVec Ideal S256 .f32) (a4 : FVec Ideal S256x3 .f32) (a5 : FVec Ideal S256x1 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) := by
  have e := congrFun h ValueIdx.ix0
  dsimp only [Cert.Pre_finite_inputs.fn, Cert.Pre_finite_inputs.fn_part1] at e
  simp only [andi, IntOp.andi_eq_one] at e
  obtain ⟨⟨⟨⟨⟨h0, h1⟩, h2⟩, h3⟩, h4⟩, h5⟩ := e
  exact ⟨fun i => real_of_lt_inf _ a0 i (Host.reduce_andi_all _ _ _ _ _ h0 i),
    fun i => real_of_lt_inf _ a1 i (Host.reduce_andi_all _ _ _ _ _ h1 i),
    fun i => real_of_lt_inf _ a2 i (Host.reduce_andi_all _ _ _ _ _ h2 i),
    fun i => real_of_lt_inf _ a3 i (Host.reduce_andi_all _ _ _ _ _ h3 i),
    fun i => real_of_lt_inf _ a4 i (Host.reduce_andi_all _ _ _ _ _ h4 i),
    fun i => real_of_lt_inf _ a5 i (Host.reduce_andi_all _ _ _ _ _ h5 i)⟩

end Cert.Bridge

end
-- ==== Proof.lean ====
/-
  The per-pixel Gaussian blend: a Pallas kernel that evaluates every (pixel, Gaussian) weight from a quadratic form with the
  rotation folded into its coefficients and reduces over the Gaussians by one matrix product, against a reference that
  rotates each offset, divides by the squared scales, and reduces by a contraction and a sum.

  Both programs run to the end from any memory, fault nowhere and leave their six argument arrays as launched. Read at the
  extended reals, from memories that agree on finite arguments, they return the same image: for every pixel and Gaussian the
  folded quadratic form A·dx² + B·dy² + C·dx·dy equals the rotated offset's squared coordinates over the squared scales (a
  real identity; finiteness of the inputs is what makes every quantity real and the scales nonzero), so the weights
  agree; the kernel's weight · (amplitude · colour) and the reference's (weight · amplitude) · colour agree by
  associativity; and the normalizers agree since the matrix's fourth column is amplitude · 1 and a sum from zero is the sum.
  The idealized kernel is the kernel's own text read at the extended reals: nothing was rewritten.
-/
import proofs.«121615_j16518444220960_2_alg».proof.Defs
import proofs.«121615_j16518444220960_2_alg».proof.Proof.Gen.Kernel
import proofs.«121615_j16518444220960_2_alg».proof.Proof.Gen.KernelIdeal
import proofs.«121615_j16518444220960_2_alg».proof.Proof.Gen.ReferenceIdeal
import proofs.«121615_j16518444220960_2_alg».proof.Proof.Gen.Pre_finite_inputs
import proofs.«121615_j16518444220960_2_alg».proof.Proof.Gen.ReferenceIdeal.Read
import proofs.«121615_j16518444220960_2_alg».proof.Proof.KernelRun
import proofs.«121615_j16518444220960_2_alg».proof.Proof.KernelIdealRun
import proofs.«121615_j16518444220960_2_alg».proof.Proof.PixelEq
import proofs.«121615_j16518444220960_2_alg».proof.Proof.FiniteInputs
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The kernel program runs and leaves its arguments as launched. -/
theorem frame_k : Cert.frame_Kernel := fun m ρ _ => Cert.Kernel.Around.frame m ρ

/-- The idealized kernel program runs and leaves its arguments as launched. -/
theorem frame_ki : Cert.frame_KernelIdeal := fun m ρ _ => Cert.KernelIdeal.Around.frame m ρ

/-- The reference program runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On finite arguments the kernel's returned image is the reference's function of the same arguments, index by index:
    each index is a pixel and one of three channels, where the kernel's colour plane is the reference's image. -/
theorem image_is_ref (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = fun _ => 1#1) :
    (Cert.KernelIdeal.Around.final m c Cert.KernelIdeal.main_v57 : Cert.KernelIdeal.S512x512x3.Idx → EReal)
      = Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  obtain ⟨h0, h1, h2, h3, -, -⟩ := Cert.Bridge.finite_of_pre _ _ _ _ _ _ hpre
  funext i
  obtain ⟨h, w, j, rfl⟩ : ∃ (h w : Fin 512) (j : Fin 3), i = ix3 h w j := ⟨i 0, i 1, i 2, eq_ix3 i⟩
  match j with
  | ⟨0, _⟩ => exact (Cert.Bridge.image_chan0 m c h w).trans (Cert.Bridge.pixel_eq m c h0 h1 h2 h3 h w 0 (by decide))
  | ⟨1, _⟩ => exact (Cert.Bridge.image_chan1 m c h w).trans (Cert.Bridge.pixel_eq m c h0 h1 h2 h3 h w 1 (by decide))
  | ⟨2, _⟩ => exact (Cert.Bridge.image_chan2 m c h w).trans (Cert.Bridge.pixel_eq m c h0 h1 h2 h3 h w 2 (by decide))

/-- From memories agreeing on finite arguments both idealized programs run and return the same image. -/
theorem algebraic : Cert.algebraic_KernelIdeal_ReferenceIdeal := by
  intro m ρ m' ρ' hpre hagree
  refine ⟨fun c => Cert.ReferenceIdeal.Read.val_main_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ⟨?_, ?_⟩) (Cert.KernelIdeal.Around.run_main m ρ)
    · exact ((h c).2 Cert.KernelIdeal.main_v57 (Pipeline.mem_restRefs_of Cert.KernelIdeal.main_v57 (by decide) (by decide))).trans
        (image_is_ref m c (hpre c))
    · exact ⟨((h c).2 Cert.KernelIdeal.main_arg0 (Pipeline.mem_restRefs_of Cert.KernelIdeal.main_arg0 (by decide) (by decide))).trans (Cert.KernelIdeal.Around.final_main_arg0 m c),
        ((h c).2 Cert.KernelIdeal.main_arg1 (Pipeline.mem_restRefs_of Cert.KernelIdeal.main_arg1 (by decide) (by decide))).trans (Cert.KernelIdeal.Around.final_main_arg1 m c),
        ((h c).2 Cert.KernelIdeal.main_arg2 (Pipeline.mem_restRefs_of Cert.KernelIdeal.main_arg2 (by decide) (by decide))).trans (Cert.KernelIdeal.Around.final_main_arg2 m c),
        ((h c).2 Cert.KernelIdeal.main_arg3 (Pipeline.mem_restRefs_of Cert.KernelIdeal.main_arg3 (by decide) (by decide))).trans (Cert.KernelIdeal.Around.final_main_arg3 m c),
        ((h c).2 Cert.KernelIdeal.main_arg4 (Pipeline.mem_restRefs_of Cert.KernelIdeal.main_arg4 (by decide) (by decide))).trans (Cert.KernelIdeal.Around.final_main_arg4 m c),
        ((h c).2 Cert.KernelIdeal.main_arg5 (Pipeline.mem_restRefs_of Cert.KernelIdeal.main_arg5 (by decide) (by decide))).trans (Cert.KernelIdeal.Around.final_main_arg5 m c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v76_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
